-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S2x625000 : Shape := ⟨2, ![2, 625000]⟩
abbrev S625000x16 : Shape := ⟨2, ![625000, 16]⟩
abbrev S3x128x128 : Shape := ⟨3, ![3, 128, 128]⟩
abbrev S3x128 : Shape := ⟨2, ![3, 128]⟩
abbrev S272x128 : Shape := ⟨2, ![272, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S625000x16 : S_.BroadcastsInDim S625000x16 (![] : Fin 0 → Fin S625000x16.rank)
  reducesTo_S625000x16_S_d0_1 : S625000x16.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x4 .f32) (main_arg11 : FVec F S4 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x4 .f32 := Host.absf main_arg10
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S4 .f32 := Host.absf main_arg11
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg5 : FVec F S3x128 .f32) (main_arg6 : FVec F S272x128 .f32) (main_arg7 : FVec F S128 .f32) (main_arg8 : FVec F S128x128 .f32) (main_arg9 : FVec F S128 .f32) (main_arg10 : FVec F S128x4 .f32) (main_arg11 : FVec F S4 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S272x128 .f32 := Host.absf main_arg6
  let main_cst_8 : FVec F S_ .f32 := constant S_ .f32 0x7F800000#32
  let main_v25 : FVec F S272x128 .f32 := broadcastInDim S272x128 ![] bcast_S_S272x128 main_cst_8
  let main_v26 : IVec S272x128 1 := cmpf .olt main_v24 main_v25
  let main_c_9 : IVec S_ 1 := constantI S_ 1 1#1
  let main_v27 : IVec S_ 1 := (fun x v => Host.reduce IntOp.andi x v reducesTo_S272x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S25000x128 .f32) (main_arg1 : IVec S2x625000 32) (main_arg2 : FVec F S625000x16 .f32) (main_arg3 : FVec F S3x128x128 .f32) (main_arg4 : FVec F S3x128x128 .f32) (main_arg5 : FVec F S3x128 .f32) (main_arg6 : FVec F S272x128 .f32) (main_arg7 : FVec F S128 .f32) (main_arg8 : FVec F S128x128 .f32) (main_arg9 : FVec F S128 .f32) (main_arg10 : FVec F S128x4 .f32) (main_arg11 : FVec F S4 .f32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S625000x16 .f32 := Host.absf main_arg2
  let main_cst_0 : FVec F S_ .f32 := constant S_ .f32 0x7F800000#32
  let main_v5 : FVec F S625000x16 .f32 := broadcastInDim S625000x16 ![] bcast_S_S625000x16 main_cst_0
  let main_v6 : IVec S625000x16 1 := cmpf .olt main_v4 main_v5
  let main_c_1 : IVec S_ 1 := constantI S_ 1 1#1
  let main_v7 : IVec S_ 1 := (fun x v => Host.reduce IntOp.andi x v reducesTo_S625000x16_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_v13 main_v16
-- ==== Kernel.lean ====
abbrev S25000x128 : Shape := ⟨2, ![25000, 128]⟩
abbrev S2x625000 : Shape := ⟨2, ![2, 625000]⟩
abbrev S625000x16 : Shape := ⟨2, ![625000, 16]⟩
abbrev S3x128x128 : Shape := ⟨3, ![3, 128, 128]⟩
abbrev S3x128 : Shape := ⟨2, ![3, 128]⟩
abbrev S272x128 : Shape := ⟨2, ![272, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1x128x128 : Shape := ⟨3, ![1, 128, 128]⟩
abbrev S1x128 : Shape := ⟨2, ![1, 128]⟩
abbrev S5000x128 : Shape := ⟨2, ![5000, 128]⟩
abbrev S16x128 : Shape := ⟨2, ![16, 128]⟩
abbrev S5000x16 : Shape := ⟨2, ![5000, 16]⟩
abbrev S1x4 : Shape := ⟨2, ![1, 4]⟩
abbrev S25000x4 : Shape := ⟨2, ![25000, 4]⟩
abbrev S5000x4 : Shape := ⟨2, ![5000, 4]⟩

abbrev nBuf : Space → Nat
  | .hbm => 115
  | .vmem => 47
  | .smem => 0
  | _ => 0

abbrev bufTy : (tb : Table) → Fin (tcTables nBuf tb) → BufTy
  | .hbm, ⟨0, _⟩ => ⟨S25000x128, .f32⟩
  | .hbm, ⟨1, _⟩ => ⟨S2x625000, .i32⟩
  | .hbm, ⟨2, _⟩ => ⟨S625000x16, .f32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S272x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x4, .f32⟩
  | .hbm, ⟨11, _⟩ => ⟨S4, .f32⟩
  | .hbm, ⟨12, _⟩ => ⟨S1x625000, .i32⟩
  | .hbm, ⟨13, _⟩ => ⟨S625000, .i32⟩
  | .hbm, ⟨14, _⟩ => ⟨S1x625000, .i32⟩
  | .hbm, ⟨15, _⟩ => ⟨S625000, .i32⟩
  | .hbm, ⟨16, _⟩ => ⟨S_, .i32⟩
  | .hbm, ⟨17, _⟩ => ⟨S625000, .i32⟩
  | .hbm, ⟨18, _⟩ => ⟨S625000, .i1⟩
  | .hbm, ⟨19, _⟩ => ⟨S_, .i32⟩
  | .hbm, ⟨20, _⟩ => ⟨S625000, .i32⟩
  | .hbm, ⟨21, _⟩ => ⟨S625000, .i32⟩
  | .hbm, ⟨22, _⟩ => ⟨S625000, .i32⟩
  | .hbm, ⟨23, _⟩ => ⟨S625000x1, .i32⟩
  | .hbm, ⟨24, _⟩ => ⟨S625000x128, .f32⟩
  | .hbm, ⟨25, _⟩ => ⟨S_, .f32⟩
  | .hbm, ⟨26, _⟩ => ⟨S25000x128, .f32⟩
  | .hbm, ⟨27, _⟩ => ⟨S625000x1, .i32⟩
  | .hbm, ⟨28, _⟩ => ⟨S25000x128, .f32⟩
  | .hbm, ⟨29, _⟩ => ⟨S1x128x128, .f32⟩
  | .hbm, ⟨30, _⟩ => ⟨S128x128, .f32⟩
  | .hbm, ⟨31, _⟩ => ⟨S1x128x128, .f32⟩
  | .hbm, ⟨32, _⟩ => ⟨S128x128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S25000x128, .f32⟩
  | .hbm, ⟨37, _⟩ => ⟨S_, .i32⟩
  | .hbm, ⟨38, _⟩ => ⟨S625000, .i32⟩
  | .hbm, ⟨39, _⟩ => ⟨S625000, .i1⟩
  | .hbm, ⟨40, _⟩ => ⟨S_, .i32⟩
  | .hbm, ⟨41, _⟩ => ⟨S625000, .i32⟩
  | .hbm, ⟨42, _⟩ => ⟨S625000, .i32⟩
  | .hbm, ⟨43, _⟩ => ⟨S625000, .i32⟩
  | .hbm, ⟨44, _⟩ => ⟨S625000x1, .i32⟩
  | .hbm, ⟨45, _⟩ => ⟨S625000x128, .f32⟩
  | .hbm, ⟨46, _⟩ => ⟨S_, .f32⟩
  | .hbm, ⟨47, _⟩ => ⟨S25000x128, .f32⟩
  | .hbm, ⟨48, _⟩ => ⟨S625000x1, .i32⟩
  | .hbm, ⟨49, _⟩ => ⟨S25000x128, .f32⟩
  | .hbm, ⟨50, _⟩ => ⟨S1x128x128, .f32⟩
  | .hbm, ⟨51, _⟩ => ⟨S128x128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S25000x128, .f32⟩
  | .hbm, ⟨58, _⟩ => ⟨S_, .i32⟩
  | .hbm, ⟨59, _⟩ => ⟨S625000, .i32⟩
  | .hbm, ⟨60, _⟩ => ⟨S625000, .i1⟩
  | .hbm, ⟨61, _⟩ => ⟨S_, .i32⟩
  | .hbm, ⟨62, _⟩ => ⟨S625000, .i32⟩
  | .hbm, ⟨63, _⟩ => ⟨S625000, .i32⟩
  | .hbm, ⟨64, _⟩ => ⟨S625000, .i32⟩
  | .hbm, ⟨65, _⟩ => ⟨S625000x1, .i32⟩
  | .hbm, ⟨66, _⟩ => ⟨S625000x128, .f32⟩
  | .hbm, ⟨67, _⟩ => ⟨S_, .f32⟩
  | .hbm, ⟨68, _⟩ => ⟨S25000x128, .f32⟩
  | .hbm, ⟨69, _⟩ => ⟨S625000x1, .i32⟩
  | .hbm, ⟨70, _⟩ => ⟨S25000x128, .f32⟩
  | .hbm, ⟨71, _⟩ => ⟨S1x128x128, .f32⟩
  | .hbm, ⟨72, _⟩ => ⟨S128x128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S25000x128, .f32⟩
  | .hbm, ⟨79, _⟩ => ⟨S_, .i32⟩
  | .hbm, ⟨80, _⟩ => ⟨S625000, .i32⟩
  | .hbm, ⟨81, _⟩ => ⟨S625000, .i1⟩
  | .hbm, ⟨82, _⟩ => ⟨S_, .i32⟩
  | .hbm, ⟨83, _⟩ => ⟨S625000, .i32⟩
  | .hbm, ⟨84, _⟩ => ⟨S625000, .i32⟩
  | .hbm, ⟨85, _⟩ => ⟨S625000, .i32⟩
  | .hbm, ⟨86, _⟩ => ⟨S625000x1, .i32⟩
  | .hbm, ⟨87, _⟩ => ⟨S625000x128, .f32⟩
  | .hbm, ⟨88, _⟩ => ⟨S_, .i32⟩
  | .hbm, ⟨89, _⟩ => ⟨S625000, .i32⟩
  | .hbm, ⟨90, _⟩ => ⟨S625000, .i1⟩
  | .hbm, ⟨91, _⟩ => ⟨S_, .i32⟩
  | .hbm, ⟨92, _⟩ => ⟨S625000, .i32⟩
  | .hbm, ⟨93, _⟩ => ⟨S625000, .i32⟩
  | .hbm, ⟨94, _⟩ => ⟨S625000, .i32⟩
  | .hbm, ⟨95, _⟩ => ⟨S625000x1, .i32⟩
  | .hbm, ⟨96, _⟩ => ⟨S625000x128, .f32⟩
  | .hbm, ⟨97, _⟩ => ⟨S128x128, .f32⟩
  | .hbm, ⟨98, _⟩ => ⟨S128x128, .f32⟩
  | .hbm, ⟨99, _⟩ => ⟨S16x128, .f32⟩
  | .hbm, ⟨100, _⟩ => ⟨S1x128, .f32⟩
  | .hbm, ⟨101, _⟩ => ⟨S1x128, .f32⟩
  | .hbm, ⟨102, _⟩ => ⟨S625000x128, .f32⟩
  | .hbm, ⟨103, _⟩ => ⟨S_, .f32⟩
  | .hbm, ⟨104, _⟩ => ⟨S25000x128, .f32⟩
  | .hbm, ⟨105, _⟩ => ⟨S625000x1, .i32⟩
  | .hbm, ⟨106, _⟩ => ⟨S25000x128, .f32⟩
  | .hbm, ⟨107, _⟩ => ⟨S_, .f32⟩
  | .hbm, ⟨108, _⟩ => ⟨S25000x128, .f32⟩
  | .hbm, ⟨109, _⟩ => ⟨S625000x1, .i32⟩
  | .hbm, ⟨110, _⟩ => ⟨S25000x128, .f32⟩
  | .hbm, ⟨111, _⟩ => ⟨S25000x128, .f32⟩
  | .hbm, ⟨112, _⟩ => ⟨S25000x128, .f32⟩
  | .hbm, ⟨113, _⟩ => ⟨S1x4, .f32⟩
  | .hbm, ⟨114, _⟩ => ⟨S25000x4, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x16, .f32⟩
  | .local _ .vmem, ⟨32, _⟩ => ⟨S5000x16, .f32⟩
  | .local _ .vmem, ⟨33, _⟩ => ⟨S128x128, .f32⟩
  | .local _ .vmem, ⟨34, _⟩ => ⟨S128x128, .f32⟩
  | .local _ .vmem, ⟨35, _⟩ => ⟨S16x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x4, .f32⟩
  | .local _ .vmem, ⟨44, _⟩ => ⟨S1x4, .f32⟩
  | .local _ .vmem, ⟨45, _⟩ => ⟨S5000x4, .f32⟩
  | .local _ .vmem, ⟨46, _⟩ => ⟨S5000x4, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_4 : Ref sig .tc := ⟨.hbm, 58, rfl⟩
abbrev main_v40 : Ref sig .tc := ⟨.hbm, 59, rfl⟩
abbrev main_v41 : Ref sig .tc := ⟨.hbm, 60, rfl⟩
abbrev main_c_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_7 : Ref sig .tc := ⟨.hbm, 79, rfl⟩
abbrev main_v58 : Ref sig .tc := ⟨.hbm, 80, rfl⟩
abbrev main_v59 : Ref sig .tc := ⟨.hbm, 81, rfl⟩
abbrev main_c_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_9 : Ref sig .tc := ⟨.hbm, 88, rfl⟩
abbrev main_v65 : Ref sig .tc := ⟨.hbm, 89, rfl⟩
abbrev main_v66 : Ref sig .tc := ⟨.hbm, 90, rfl⟩
abbrev main_c_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_11 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_12 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg9_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg3_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem9_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem3_1 : DmaSem sig := 46

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x4 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S25000x128 : S_.BroadcastsInDim S25000x128 (![] : Fin 0 → Fin S25000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S272x128_S128x128_0_0 : S272x128.Slices ![0, 0] S128x128
  slices_S272x128_S128x128_128_0 : S272x128.Slices ![128, 0] S128x128
  slices_S272x128_S16x128_256_0 : S272x128.Slices ![256, 0] S16x128
  inb_S5000x16_S5000x16_0_0 : ∀ a, (![0, 0] : Fin 2 → Nat) a + S5000x16.size a ≤ S5000x16.size a
  h_S5000x16 : 0 < S5000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S4_S1x4 : S4.ShapeCasts S1x4
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  gather_S25000x128_S625000x1_S625000x128_1_0_n_n_0_1_1128_wf : GatherDims.WF S25000x128 S625000x1 S625000x128 [1] [0] [] [0] [] 1 ![1, 128]
  scatter_S25000x128_S625000x1_S625000x128_1_0_0_1_wf : ScatterDims.WF S25000x128 S625000x1 S625000x128 [1] [0] [0] 1
  dot_S5000x128_S128x128_S5000x128_1_0_0_1_n_n_wf : DotDims.WF S5000x128 S128x128 S5000x128 [1] [0] [0] [1] [] []
  dot_S5000x16_S16x128_S5000x128_1_0_0_1_n_n_wf : DotDims.WF S5000x16 S16x128 S5000x128 [1] [0] [0] [1] [] []
  dot_S5000x128_S128x4_S5000x4_1_0_0_1_n_n_wf : DotDims.WF S5000x128 S128x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S25000x128.size a
  hwx0_5 : ∀ i : grid0.Coords, EltTy.bits .f32 = 32 ∨ (Rect.block (s := S25000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S25000x128.size a
  hwx1_5 : ∀ i : grid1.Coords, EltTy.bits .f32 = 32 ∨ (Rect.block (s := S25000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S25000x128.size a
  hwx2_1 : ∀ i : grid2.Coords, EltTy.bits .f32 = 32 ∨ (Rect.block (s := S25000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S25000x128.size a
  hwx2_5 : ∀ i : grid2.Coords, EltTy.bits .f32 = 32 ∨ (Rect.block (s := S25000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S625000x128.size a
  hwx3_0 : ∀ i : grid3.Coords, EltTy.bits .f32 = 32 ∨ (Rect.block (s := S625000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S625000x128.size a
  hwx3_1 : ∀ i : grid3.Coords, EltTy.bits .f32 = 32 ∨ (Rect.block (s := S625000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S625000x16.size a
  hwx3_2 : ∀ i : grid3.Coords, EltTy.bits .f32 = 32 ∨ (Rect.block (s := S625000x16) S5000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x128.size a ≤ S16x128.size a
  hwx3_5 : ∀ i : grid3.Coords, EltTy.bits .f32 = 32 ∨ (Rect.block (s := S16x128) S16x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S625000x128.size a
  hwx3_9 : ∀ i : grid3.Coords, EltTy.bits .f32 = 32 ∨ (Rect.block (s := S625000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S25000x128.size a
  hwx4_0 : ∀ i : grid4.Coords, EltTy.bits .f32 = 32 ∨ (Rect.block (s := S25000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x4.size a ≤ S128x4.size a
  hwx4_1 : ∀ i : grid4.Coords, EltTy.bits .f32 = 32 ∨ (Rect.block (s := S128x4) S128x4.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x4.size a ≤ S1x4.size a
  hwx4_2 : ∀ i : grid4.Coords, EltTy.bits .f32 = 32 ∨ (Rect.block (s := S1x4) S1x4.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x4.size a ≤ S25000x4.size a
  hwx4_3 : ∀ i : grid4.Coords, EltTy.bits .f32 = 32 ∨ (Rect.block (s := S25000x4) S5000x4.size (cc4_transform_3 i) (hinb4_3 i)).WholeWords (EltTy.packing .f32)

variable [Facts₀]

def gather_S25000x128_S625000x1_S625000x128_1_0_n_n_0_1_1128 : GatherDims S25000x128 S625000x1 S625000x128 where
  offsetDims := [1]
  collapsedSliceDims := [0]
  operandBatchingDims := []
  startIndicesBatchingDims := []
  startIndexMap := [0]
  indexVectorDim := 1
  sliceSizes := ![1, 128]
  wf := gather_S25000x128_S625000x1_S625000x128_1_0_n_n_0_1_1128_wf
def scatter_S25000x128_S625000x1_S625000x128_1_0_0_1 : ScatterDims S25000x128 S625000x1 S625000x128 where
  updateWindowDims := [1]
  insertedWindowDims := [0]
  scatterDimsToOperandDims := [0]
  indexVectorDim := 1
  wf := scatter_S25000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S5000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S16x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg8) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v76) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v77) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v85) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S5000x4.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S25000x128 : Shape := ⟨2, ![25000, 128]⟩
abbrev S2x625000 : Shape := ⟨2, ![2, 625000]⟩
abbrev S625000x16 : Shape := ⟨2, ![625000, 16]⟩
abbrev S3x128x128 : Shape := ⟨3, ![3, 128, 128]⟩
abbrev S3x128 : Shape := ⟨2, ![3, 128]⟩
abbrev S272x128 : Shape := ⟨2, ![272, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1x128x128 : Shape := ⟨3, ![1, 128, 128]⟩
abbrev S1x128 : Shape := ⟨2, ![1, 128]⟩
abbrev S625000x272 : Shape := ⟨2, ![625000, 272]⟩
abbrev S25000x4 : Shape := ⟨2, ![25000, 4]⟩
abbrev S1x4 : Shape := ⟨2, ![1, 4]⟩

abbrev nBuf : Space → Nat
  | .hbm => 144
  | .vmem => 0
  | .smem => 0
  | _ => 0

abbrev hbmTy0_0 (i : Nat) : BufTy := match i % 128 with
  | 0 => ⟨S25000x128, .f32⟩
  | 1 => ⟨S2x625000, .i32⟩
  | 2 => ⟨S625000x16, .f32⟩
  | 3 => ⟨S3x128x128, .f32⟩
  | 4 => ⟨S3x128x128, .f32⟩
  | 5 => ⟨S3x128, .f32⟩
  | 6 => ⟨S272x128, .f32⟩
  | 7 => ⟨S128, .f32⟩
  | 8 => ⟨S128x128, .f32⟩
  | 9 => ⟨S128, .f32⟩
  | 10 => ⟨S128x4, .f32⟩
  | 11 => ⟨S4, .f32⟩
  | 12 => ⟨S1x625000, .i32⟩
  | 13 => ⟨S625000, .i32⟩
  | 14 => ⟨S1x625000, .i32⟩
  | 15 => ⟨S625000, .i32⟩
  | 16 => ⟨S_, .i32⟩
  | 17 => ⟨S625000, .i32⟩
  | 18 => ⟨S625000, .i1⟩
  | 19 => ⟨S_, .i32⟩
  | 20 => ⟨S625000, .i32⟩
  | 21 => ⟨S625000, .i32⟩
  | 22 => ⟨S625000, .i32⟩
  | 23 => ⟨S625000x1, .i32⟩
  | 24 => ⟨S625000x128, .f32⟩
  | 25 => ⟨S_, .f32⟩
  | 26 => ⟨S25000x128, .f32⟩
  | 27 => ⟨S625000x1, .i32⟩
  | 28 => ⟨S25000x128, .f32⟩
  | 29 => ⟨S1x128x128, .f32⟩
  | 30 => ⟨S128x128, .f32⟩
  | 31 => ⟨S25000x128, .f32⟩
  | 32 => ⟨S1x128x128, .f32⟩
  | 33 => ⟨S128x128, .f32⟩
  | 34 => ⟨S25000x128, .f32⟩
  | 35 => ⟨S25000x128, .f32⟩
  | 36 => ⟨S1x128, .f32⟩
  | 37 => ⟨S128, .f32⟩
  | 38 => ⟨S1x128, .f32⟩
  | 39 => ⟨S25000x128, .f32⟩
  | 40 => ⟨S25000x128, .f32⟩
  | 41 => ⟨S_, .f32⟩
  | 42 => ⟨S25000x128, .f32⟩
  | 43 => ⟨S25000x128, .f32⟩
  | 44 => ⟨S_, .i32⟩
  | 45 => ⟨S625000, .i32⟩
  | 46 => ⟨S625000, .i1⟩
  | 47 => ⟨S_, .i32⟩
  | 48 => ⟨S625000, .i32⟩
  | 49 => ⟨S625000, .i32⟩
  | 50 => ⟨S625000, .i32⟩
  | 51 => ⟨S625000x1, .i32⟩
  | 52 => ⟨S625000x128, .f32⟩
  | 53 => ⟨S_, .f32⟩
  | 54 => ⟨S25000x128, .f32⟩
  | 55 => ⟨S625000x1, .i32⟩
  | 56 => ⟨S25000x128, .f32⟩
  | 57 => ⟨S1x128x128, .f32⟩
  | 58 => ⟨S128x128, .f32⟩
  | 59 => ⟨S25000x128, .f32⟩
  | 60 => ⟨S1x128x128, .f32⟩
  | 61 => ⟨S128x128, .f32⟩
  | 62 => ⟨S25000x128, .f32⟩
  | 63 => ⟨S25000x128, .f32⟩
  | 64 => ⟨S1x128, .f32⟩
  | 65 => ⟨S128, .f32⟩
  | 66 => ⟨S1x128, .f32⟩
  | 67 => ⟨S25000x128, .f32⟩
  | 68 => ⟨S25000x128, .f32⟩
  | 69 => ⟨S_, .f32⟩
  | 70 => ⟨S25000x128, .f32⟩
  | 71 => ⟨S25000x128, .f32⟩
  | 72 => ⟨S_, .i32⟩
  | 73 => ⟨S625000, .i32⟩
  | 74 => ⟨S625000, .i1⟩
  | 75 => ⟨S_, .i32⟩
  | 76 => ⟨S625000, .i32⟩
  | 77 => ⟨S625000, .i32⟩
  | 78 => ⟨S625000, .i32⟩
  | 79 => ⟨S625000x1, .i32⟩
  | 80 => ⟨S625000x128, .f32⟩
  | 81 => ⟨S_, .f32⟩
  | 82 => ⟨S25000x128, .f32⟩
  | 83 => ⟨S625000x1, .i32⟩
  | 84 => ⟨S25000x128, .f32⟩
  | 85 => ⟨S1x128x128, .f32⟩
  | 86 => ⟨S128x128, .f32⟩
  | 87 => ⟨S25000x128, .f32⟩
  | 88 => ⟨S1x128x128, .f32⟩
  | 89 => ⟨S128x128, .f32⟩
  | 90 => ⟨S25000x128, .f32⟩
  | 91 => ⟨S25000x128, .f32⟩
  | 92 => ⟨S1x128, .f32⟩
  | 93 => ⟨S128, .f32⟩
  | 94 => ⟨S1x128, .f32⟩
  | 95 => ⟨S25000x128, .f32⟩
  | 96 => ⟨S25000x128, .f32⟩
  | 97 => ⟨S_, .f32⟩
  | 98 => ⟨S25000x128, .f32⟩
  | 99 => ⟨S25000x128, .f32⟩
  | 100 => ⟨S_, .i32⟩
  | 101 => ⟨S625000, .i32⟩
  | 102 => ⟨S625000, .i1⟩
  | 103 => ⟨S_, .i32⟩
  | 104 => ⟨S625000, .i32⟩
  | 105 => ⟨S625000, .i32⟩
  | 106 => ⟨S625000, .i32⟩
  | 107 => ⟨S625000x1, .i32⟩
  | 108 => ⟨S625000x128, .f32⟩
  | 109 => ⟨S_, .i32⟩
  | 110 => ⟨S625000, .i32⟩
  | 111 => ⟨S625000, .i1⟩
  | 112 => ⟨S_, .i32⟩
  | 113 => ⟨S625000, .i32⟩
  | 114 => ⟨S625000, .i32⟩
  | 115 => ⟨S625000, .i32⟩
  | 116 => ⟨S625000x1, .i32⟩
  | 117 => ⟨S625000x128, .f32⟩
  | 118 => ⟨S625000x272, .f32⟩
  | 119 => ⟨S625000x128, .f32⟩
  | 120 => ⟨S1x128, .f32⟩
  | 121 => ⟨S625000x128, .f32⟩
  | 122 => ⟨S625000x128, .f32⟩
  | 123 => ⟨S_, .f32⟩
  | 124 => ⟨S625000x128, .f32⟩
  | 125 => ⟨S625000x128, .f32⟩
  | 126 => ⟨S625000x128, .f32⟩
  | 127 => ⟨S1x128, .f32⟩
  | _ => ⟨S25000x128, .f32⟩

abbrev hbmTy0_1 (i : Nat) : BufTy := match i % 128 with
  | 0 => ⟨S625000x128, .f32⟩
  | 1 => ⟨S625000x128, .f32⟩
  | 2 => ⟨S_, .f32⟩
  | 3 => ⟨S25000x128, .f32⟩
  | 4 => ⟨S625000x1, .i32⟩
  | 5 => ⟨S25000x128, .f32⟩
  | 6 => ⟨S_, .f32⟩
  | 7 => ⟨S25000x128, .f32⟩
  | 8 => ⟨S625000x1, .i32⟩
  | 9 => ⟨S25000x128, .f32⟩
  | 10 => ⟨S25000x128, .f32⟩
  | 11 => ⟨S25000x128, .f32⟩
  | 12 => ⟨S25000x4, .f32⟩
  | 13 => ⟨S1x4, .f32⟩
  | 14 => ⟨S25000x4, .f32⟩
  | 15 => ⟨S25000x4, .f32⟩
  | _ => ⟨S25000x128, .f32⟩

abbrev hbmTy (i : Nat) : BufTy := match i / 128 with
  | 0 => hbmTy0_0 i
  | 1 => hbmTy0_1 i
  | _ => ⟨S25000x128, .f32⟩

abbrev bufTy : (tb : Table) → Fin (tcTables nBuf tb) → BufTy
  | .hbm, ⟨i, _⟩ => hbmTy i
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_c_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_c_4 : Ref sig .tc := ⟨.hbm, 72, rfl⟩
abbrev main_v50 : Ref sig .tc := ⟨.hbm, 73, rfl⟩
abbrev main_v51 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call2_cst : Ref sig .tc := ⟨.hbm, 97, rfl⟩
abbrev main_call2_v0 : Ref sig .tc := ⟨.hbm, 98, rfl⟩
abbrev main_v72 : Ref sig .tc := ⟨.hbm, 99, rfl⟩
abbrev main_c_7 : Ref sig .tc := ⟨.hbm, 100, rfl⟩
abbrev main_v73 : Ref sig .tc := ⟨.hbm, 101, rfl⟩
abbrev main_v74 : Ref sig .tc := ⟨.hbm, 102, rfl⟩
abbrev main_c_8 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_9 : Ref sig .tc := ⟨.hbm, 109, rfl⟩
abbrev main_v80 : Ref sig .tc := ⟨.hbm, 110, rfl⟩
abbrev main_v81 : Ref sig .tc := ⟨.hbm, 111, rfl⟩
abbrev main_c_10 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_call3_cst : Ref sig .tc := ⟨.hbm, 123, rfl⟩
abbrev main_call3_v0 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_11 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_12 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S25000x128 : S_.BroadcastsInDim S25000x128 (![] : Fin 0 → Fin S25000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S625000x128_S625000x128_S625000x16_S625000x272_d1 : Shape.Concatenates [S625000x128, S625000x128, S625000x16] S625000x272 1
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  bcast_S4_S1x4_1 : S4.BroadcastsInDim S1x4 (![1] : Fin 1 → Fin S1x4.rank)
  bcast_S1x4_S25000x4_0_1 : S1x4.BroadcastsInDim S25000x4 (![0, 1] : Fin 2 → Fin S25000x4.rank)
  gather_S25000x128_S625000x1_S625000x128_1_0_n_n_0_1_1128_wf : GatherDims.WF S25000x128 S625000x1 S625000x128 [1] [0] [] [0] [] 1 ![1, 128]
  scatter_S25000x128_S625000x1_S625000x128_1_0_0_1_wf : ScatterDims.WF S25000x128 S625000x1 S625000x128 [1] [0] [0] 1
  dot_S25000x128_S128x128_S25000x128_1_0_0_1_n_n_wf : DotDims.WF S25000x128 S128x128 S25000x128 [1] [0] [0] [1] [] []
  dot_S625000x272_S272x128_S625000x128_1_0_0_1_n_n_wf : DotDims.WF S625000x272 S272x128 S625000x128 [1] [0] [0] [1] [] []
  dot_S625000x128_S128x128_S625000x128_1_0_0_1_n_n_wf : DotDims.WF S625000x128 S128x128 S625000x128 [1] [0] [0] [1] [] []
  dot_S25000x128_S128x4_S25000x4_1_0_0_1_n_n_wf : DotDims.WF S25000x128 S128x4 S25000x4 [1] [0] [0] [1] [] []

variable [Facts₀]

def gather_S25000x128_S625000x1_S625000x128_1_0_n_n_0_1_1128 : GatherDims S25000x128 S625000x1 S625000x128 where
  offsetDims := [1]
  collapsedSliceDims := [0]
  operandBatchingDims := []
  startIndicesBatchingDims := []
  startIndexMap := [0]
  indexVectorDim := 1
  sliceSizes := ![1, 128]
  wf := gather_S25000x128_S625000x1_S625000x128_1_0_n_n_0_1_1128_wf
def scatter_S25000x128_S625000x1_S625000x128_1_0_0_1 : ScatterDims S25000x128 S625000x1 S625000x128 where
  updateWindowDims := [1]
  insertedWindowDims := [0]
  scatterDimsToOperandDims := [0]
  indexVectorDim := 1
  wf := scatter_S25000x128_S625000x1_S625000x128_1_0_0_1_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def dot_S625000x272_S272x128_S625000x128_1_0_0_1_n_n : DotDims S625000x272 S272x128 S625000x128 where
  lhsContracting := [1]
  rhsContracting := [0]
  lhsNonContracting := [0]
  rhsNonContracting := [1]
  lhsBatch := []
  rhsBatch := []
  wf := dot_S625000x272_S272x128_S625000x128_1_0_0_1_n_n_wf
def dot_S625000x128_S128x128_S625000x128_1_0_0_1_n_n : DotDims S625000x128 S128x128 S625000x128 where
  lhsContracting := [1]
  rhsContracting := [0]
  lhsNonContracting := [0]
  rhsNonContracting := [1]
  lhsBatch := []
  rhsBatch := []
  wf := dot_S625000x128_S128x128_S625000x128_1_0_0_1_n_n_wf
def dot_S25000x128_S128x4_S25000x4_1_0_0_1_n_n : DotDims S25000x128 S128x4 S25000x4 where
  lhsContracting := [1]
  rhsContracting := [0]
  lhsNonContracting := [0]
  rhsNonContracting := [1]
  lhsBatch := []
  rhsBatch := []
  wf := dot_S25000x128_S128x4_S25000x4_1_0_0_1_n_n_wf

class Facts : Prop extends Facts₀ where

variable [Facts]
-- ==== Proof.KernelRun.lean ====
/-
  The idealized kernel's run with its result named.

  @main is ten segments: five stretches of host operations and five tiled regions. The buffer contents at each
  boundary are a fold from the launch memory (`Gen.W0` … `Gen.W10`): a host stretch applies its operations, a region
  replaces its arrays by what its write-backs leave. Every weakly fair execution terminates with every unscoped
  buffer at the last boundary's contents; read at the result buffer that is `Gen.W10` there, and read at an argument
  it is the launch contents.
-/
import proofs.«141989_j910533067387_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, its result buffer at the last boundary's contents
    and its arguments as launched. -/
theorem run_result : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Run

end
-- ==== Proof.Rows.lean ====
/-
  The network one output entry at a time, over the extended reals.

  Every dense stage of the graph network produces row `r` of its result from row `r` of its inputs alone:
  * a convolution layer: entry `j` of `max (h_r · W_self + agg_r · W_neigh + b, 0)`;
  * the edge network: entry `j` of `max (s_r · W1s + d_r · W1d + e_r · W1e + b1, 0) · W2 + b2`, the first product
    being the product of the joined row (s_r, d_r, e_r) with the stacked matrix W1, split at its three row bands;
  * the classifier: entry `j` of `h_r · W + b`.
  The whole-array functions read each input's row `i 0` and produce entry `i 1`. A product with a 272-row matrix is
  the sum of the products with its row bands 0–127, 128–255, 256–271: addition of extended reals is commutative and
  associative, so a finite sum may be cut anywhere, infinite terms or not.
-/
import Idealize.ShloMosaic.PureOps.Ideal
import Idealize.ShloMosaic.Lib.ValueIdx
import Mathlib.Algebra.BigOperators.Fin

noncomputable section

open scoped BigOperators

namespace Cert.Gnn

open Idealize.ShloMosaic Idealize.ShloMosaic.ValueIdx

/-- A matrix of extended reals with literal extents. -/
abbrev Mat (n m : Nat) := (⟨2, ![n, m]⟩ : Shape).Idx → EReal

/-- One entry of a convolution layer's row. -/
def convRow (hr ar : Fin 128 → EReal) (ws wn : Mat 128 128) (b : Fin 128 → EReal) (j : Fin 128) : EReal :=
  max ((∑ k : Fin 128, hr k * ws (ix2 k j)) + (∑ k : Fin 128, ar k * wn (ix2 k j)) + b j) 0

/-- One entry of the edge network's hidden row, before the second product. -/
def hidRow (sr dr : Fin 128 → EReal) (er : Fin 16 → EReal) (w1s w1d : Mat 128 128) (w1e : Mat 16 128)
    (b1 : Fin 128 → EReal) (q : Fin 128) : EReal :=
  max ((∑ k : Fin 128, sr k * w1s (ix2 k q)) + (∑ k : Fin 128, dr k * w1d (ix2 k q))
    + (∑ k : Fin 16, er k * w1e (ix2 k q)) + b1 q) 0

/-- One entry of the edge network's output row. -/
def mlpRow (sr dr : Fin 128 → EReal) (er : Fin 16 → EReal) (w1s w1d : Mat 128 128) (w1e : Mat 16 128)
    (b1 : Fin 128 → EReal) (w2 : Mat 128 128) (b2 : Fin 128 → EReal) (j : Fin 128) : EReal :=
  (∑ q : Fin 128, hidRow sr dr er w1s w1d w1e b1 q * w2 (ix2 q j)) + b2 j

/-- One entry of the classifier's row. -/
def linRow (hr : Fin 128 → EReal) (w : Mat 128 4) (b : Fin 4 → EReal) (j : Fin 4) : EReal :=
  (∑ k : Fin 128, hr k * w (ix2 k j)) + b j

/-- A convolution layer over all 25000 nodes. -/
def convG (h agg : Mat 25000 128) (ws wn : Mat 128 128) (b : Fin 128 → EReal) : Mat 25000 128 :=
  fun i => convRow (fun k => h (ix2 (i 0) k)) (fun k => agg (ix2 (i 0) k)) ws wn b (i 1)

/-- The edge network over all 625000 edges. -/
def mlpG (hs hd : Mat 625000 128) (ea : Mat 625000 16) (w1s w1d : Mat 128 128) (w1e : Mat 16 128)
    (b1 : Fin 128 → EReal) (w2 : Mat 128 128) (b2 : Fin 128 → EReal) : Mat 625000 128 :=
  fun i => mlpRow (fun k => hs (ix2 (i 0) k)) (fun k => hd (ix2 (i 0) k)) (fun k => ea (ix2 (i 0) k))
    w1s w1d w1e b1 w2 b2 (i 1)

/-- The classifier over all 25000 nodes. -/
def linG (h : Mat 25000 128) (w : Mat 128 4) (b : Fin 4 → EReal) : Mat 25000 4 :=
  fun i => linRow (fun k => h (ix2 (i 0) k)) w b (i 1)

/-- A sum over 272 terms is the sum of its first 128, its next 128 and its last 16. -/
theorem sum_272 (f : Fin 272 → EReal) :
    ∑ k : Fin 272, f k
      = (∑ k : Fin 128, f ⟨k.val, by omega⟩) + (∑ k : Fin 128, f ⟨128 + k.val, by omega⟩)
        + ∑ k : Fin 16, f ⟨256 + k.val, by omega⟩ := by
  have h1 := Fin.sum_univ_add (M := EReal) (a := 256) (b := 16) (f : Fin (256 + 16) → EReal)
  have h2 := Fin.sum_univ_add (M := EReal) (a := 128) (b := 128)
    (fun i : Fin (128 + 128) => (f : Fin (256 + 16) → EReal) (Fin.castAdd 16 i))
  exact h1.trans (congrArg (· + _) h2)

end Cert.Gnn

end
-- ==== Proof.KerStages.lean ====
/-
  The kernel program's host stages by name, and the node features it computes between them.

  Between its five tiled regions the kernel's host side does what the reference does: it cuts the edge table into
  source and destination node numbers, gathers node rows along them, adds edge rows up per node, and cuts each layer's
  matrices and bias out of the stacked parameters. The tiled regions compute the dense stages; `Rows.lean` states those
  one output entry at a time. Composed in program order these give the kernel's result as one term of its arguments.
-/
import proofs.«141989_j910533067387_1_alg».proof.KernelIdeal
import proofs.«141989_j910533067387_1_alg».proof.Proof.Gen.KernelIdeal
import proofs.«141989_j910533067387_1_alg».proof.Proof.Rows

set_option maxRecDepth 16384

noncomputable section

namespace Cert.KernelIdeal.Stages

open Cert.KernelIdeal Cert.KernelIdeal.Gen Idealize.ShloMosaic Idealize.ShloMosaic.TcCoe Idealize.ShloMosaic.ValueIdx Idealize.SL.Sem

variable {F : FTy → Type} [FloatOps F]

/-- The edges' source node numbers: row 0 of the edge table. -/
def srcOf (a1 : IVec S2x625000 32) : IVec S625000 32 :=
  shapeCast _ (extractStridedSlice S1x625000 ![0, 0] a1 slices_S2x625000_S1x625000_0_0) shapeCasts_S1x625000_S625000
/-- The edges' destination node numbers: row 1 of the edge table. -/
def dstOf (a1 : IVec S2x625000 32) : IVec S625000 32 :=
  shapeCast _ (extractStridedSlice S1x625000 ![1, 0] a1 slices_S2x625000_S1x625000_1_0) shapeCasts_S1x625000_S625000
/-- Node numbers as gather start indices: a negative number counts from the end. -/
def wrap (v : IVec S625000 32) : IVec S625000x1 32 :=
  broadcastInDim S625000x1 ![0] bcast_S625000_S625000x1_0
    (select (cmpi .slt v (broadcastInDim S625000 ![] bcast_S_S625000 (constantI S_ 32 0#32)))
      (addi v (broadcastInDim S625000 ![] bcast_S_S625000 (constantI S_ 32 25000#32))) v)
/-- The rows of `h` at the given start indices. -/
def rowsAt (h : FVec F S25000x128 .f32) (idx : IVec S625000x1 32) : FVec F S625000x128 .f32 :=
  Host.gather gather_S25000x128_S625000x1_S625000x128_1_0_n_n_0_1_1128 h idx
/-- The zero array the scatter-adds start from. -/
def zeros : FVec F S25000x128 .f32 := broadcastInDim S25000x128 ![] bcast_S_S25000x128 (constant S_ .f32 0x00000000#32)
/-- Per-node sums of edge rows, each edge's row added at the node numbered `v`. -/
def sumAt (v : IVec S625000 32) (u : FVec F S625000x128 .f32) : FVec F S25000x128 .f32 :=
  Host.scatterAdd scatter_S25000x128_S625000x1_S625000x128_1_0_0_1 zeros (broadcastInDim S625000x1 ![0] bcast_S625000_S625000x1_0 v) u
/-- The neighbour sums of `h`: every edge's source row added at its destination node. -/
def agg (h : FVec F S25000x128 .f32) (a1 : IVec S2x625000 32) : FVec F S25000x128 .f32 :=
  sumAt (dstOf a1) (rowsAt h (wrap (srcOf a1)))

/-- Layer `l`'s matrix cut out of the stacked parameters. -/
def w0 (a : FVec F S3x128x128 .f32) : FVec F S128x128 .f32 :=
  shapeCast _ (extractStridedSlice S1x128x128 ![0, 0, 0] a slices_S3x128x128_S1x128x128_0_0_0) shapeCasts_S1x128x128_S128x128
def w1 (a : FVec F S3x128x128 .f32) : FVec F S128x128 .f32 :=
  shapeCast _ (extractStridedSlice S1x128x128 ![1, 0, 0] a slices_S3x128x128_S1x128x128_1_0_0) shapeCasts_S1x128x128_S128x128
def w2 (a : FVec F S3x128x128 .f32) : FVec F S128x128 .f32 :=
  shapeCast _ (extractStridedSlice S1x128x128 ![2, 0, 0] a slices_S3x128x128_S1x128x128_2_0_0) shapeCasts_S1x128x128_S128x128
/-- Layer `l`'s bias cut out of the stacked biases. -/
def b0 (a : FVec F S3x128 .f32) : FVec F S128 .f32 :=
  shapeCast _ (extractStridedSlice S1x128 ![0, 0] a slices_S3x128_S1x128_0_0) shapeCasts_S1x128_S128
def b1 (a : FVec F S3x128 .f32) : FVec F S128 .f32 :=
  shapeCast _ (extractStridedSlice S1x128 ![1, 0] a slices_S3x128_S1x128_1_0) shapeCasts_S1x128_S128
def b2 (a : FVec F S3x128 .f32) : FVec F S128 .f32 :=
  shapeCast _ (extractStridedSlice S1x128 ![2, 0] a slices_S3x128_S1x128_2_0) shapeCasts_S1x128_S128
/-- A 128-vector as the one-row matrix a tiled region takes. -/
def asRow (b : FVec F S128 .f32) : FVec F S1x128 .f32 := shapeCast _ b shapeCasts_S128_S1x128
/-- The classifier's bias as a one-row matrix. -/
def asRow4 (b : FVec F S4 .f32) : FVec F S1x4 .f32 := shapeCast _ b shapeCasts_S4_S1x4
/-- The three row bands of the edge network's stacked first matrix. -/
def band0 (a : FVec F S272x128 .f32) : FVec F S128x128 .f32 := extractStridedSlice S128x128 ![0, 0] a slices_S272x128_S128x128_0_0
def band1 (a : FVec F S272x128 .f32) : FVec F S128x128 .f32 := extractStridedSlice S128x128 ![128, 0] a slices_S272x128_S128x128_128_0
def band2 (a : FVec F S272x128 .f32) : FVec F S16x128 .f32 := extractStridedSlice S16x128 ![256, 0] a slices_S272x128_S16x128_256_0

end Cert.KernelIdeal.Stages

namespace Cert.KernelIdeal.Stages

open Cert.KernelIdeal Cert.KernelIdeal.Gen Idealize.ShloMosaic Idealize.ShloMosaic.TcCoe Idealize.ShloMosaic.ValueIdx Idealize.SL.Sem

/-- The one row of a one-row matrix. -/
def theRow {n : Nat} (b : (⟨2, ![1, n]⟩ : Shape).Idx → EReal) : Fin n → EReal := fun q => b (ix2 0 q)

/-- The node features after each convolution layer, at the exact reals. -/
def kh1 (a0 : FVec Ideal S25000x128 .f32) (a1 : IVec S2x625000 32) (a3 a4 : FVec Ideal S3x128x128 .f32) (a5 : FVec Ideal S3x128 .f32) : FVec Ideal S25000x128 .f32 :=
  Cert.Gnn.convG a0 (agg a0 a1) (w0 a3) (w0 a4) (theRow (asRow (b0 a5)))
def kh2 (a0 : FVec Ideal S25000x128 .f32) (a1 : IVec S2x625000 32) (a3 a4 : FVec Ideal S3x128x128 .f32) (a5 : FVec Ideal S3x128 .f32) : FVec Ideal S25000x128 .f32 :=
  Cert.Gnn.convG (kh1 a0 a1 a3 a4 a5) (agg (kh1 a0 a1 a3 a4 a5) a1) (w1 a3) (w1 a4) (theRow (asRow (b1 a5)))
def kh3 (a0 : FVec Ideal S25000x128 .f32) (a1 : IVec S2x625000 32) (a3 a4 : FVec Ideal S3x128x128 .f32) (a5 : FVec Ideal S3x128 .f32) : FVec Ideal S25000x128 .f32 :=
  Cert.Gnn.convG (kh2 a0 a1 a3 a4 a5) (agg (kh2 a0 a1 a3 a4 a5) a1) (w2 a3) (w2 a4) (theRow (asRow (b2 a5)))

/-- Every edge's message from the convolved features `h`. -/
def msg (h : FVec Ideal S25000x128 .f32) (a1 : IVec S2x625000 32) (a2 : FVec Ideal S625000x16 .f32) (a6 : FVec Ideal S272x128 .f32)
    (a7 : FVec Ideal S128 .f32) (a8 : FVec Ideal S128x128 .f32) (a9 : FVec Ideal S128 .f32) : FVec Ideal S625000x128 .f32 :=
  Cert.Gnn.mlpG (rowsAt h (wrap (srcOf a1))) (rowsAt h (wrap (dstOf a1))) a2 (band0 a6) (band1 a6) (band2 a6)
    (theRow (asRow a7)) a8 (theRow (asRow a9))

/-- The features with every edge's message added at both of its end nodes. -/
def h4 (h : FVec Ideal S25000x128 .f32) (a1 : IVec S2x625000 32) (u : FVec Ideal S625000x128 .f32) : FVec Ideal S25000x128 .f32 :=
  addf h (addf (sumAt (srcOf a1) u) (sumAt (dstOf a1) u))

/-- The kernel's logits as one term of its arguments. -/
def out (a0 : FVec Ideal S25000x128 .f32) (a1 : IVec S2x625000 32) (a2 : FVec Ideal S625000x16 .f32) (a3 a4 : FVec Ideal S3x128x128 .f32)
    (a5 : FVec Ideal S3x128 .f32) (a6 : FVec Ideal S272x128 .f32) (a7 : FVec Ideal S128 .f32) (a8 : FVec Ideal S128x128 .f32)
    (a9 : FVec Ideal S128 .f32) (a10 : FVec Ideal S128x4 .f32) (a11 : FVec Ideal S4 .f32) : FVec Ideal S25000x4 .f32 :=
  Cert.Gnn.linG (h4 (kh3 a0 a1 a3 a4 a5) a1 (msg (kh3 a0 a1 a3 a4 a5) a1 a2 a6 a7 a8 a9)) a10 (theRow (asRow4 a11))

end Cert.KernelIdeal.Stages

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.KerPay.lean ====
/-
  The five tile bodies of the graph network read at one output index, over the extended reals.

  Each body takes whole tiles (5000 rows of node or edge features, the weight matrices, a 1 × n bias row) and
  produces a tile. Over the extended reals every change of number format is the identity, a tile product into
  the zero accumulator is the plain sum over the contracted coordinate, the bias row broadcast over the rows reads
  its one row, and the zero word is the number 0. So the entry at (r, c) of each result depends on row r of the
  row-indexed operands alone:
  * a convolution layer's tile: entry c of  max (h_r · W_self + agg_r · W_neigh + b, 0);
  * the edge network's tile: entry c of  max (s_r · W1s + d_r · W1d + e_r · W1e + b1, 0) · W2 + b2, where the left
    factor of the outer product at (r, k) is the hidden tile's entry at (r, k);
  * the classifier's tile: entry c of  h_r · W + b.
  These are the row functions of the network, one output entry at a time.
-/
import proofs.«141989_j910533067387_1_alg».proof.Proof.Gen.KernelIdeal.Skeleton
import proofs.«141989_j910533067387_1_alg».proof.Proof.Rows
import proofs.«141989_j910533067387_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal

/-- The first convolution layer's tile at (r, c): the maximum with 0 of the two row-by-matrix products plus the
    bias, from row r of the features and of the aggregated features. -/
theorem k0_apply (x0 x1 : Vec Ideal S5000x128 .f32) (x2 x3 : Vec Ideal S128x128 .f32) (x4 : Vec Ideal S1x128 .f32)
    (y : S5000x128.Idx) :
    Gen.k0_pay1 (F := Ideal) x0 x1 x2 x3 x4 y
      = Cert.Gnn.convRow (fun k => x0 (ix2 (y 0) k)) (fun k => x1 (ix2 (y 0) k)) x2 x3 (fun q => x4 (ix2 0 q)) (y 1) := by
  obtain ⟨p, q, rfl⟩ : ∃ (p : Fin 5000) (q : Fin 128), y = ix2 p q := ⟨y 0, y 1, eq_ix2 y⟩
  unfold Gen.k0_pay1 Cert.Gnn.convRow
  simp only [shapeCast_self]
  rw [maximumf_apply, addf_apply, addf_apply, broadcast_apply]
  simp only [matmul]
  rw [PlainDot.matmul_zero_plain _ rfl rfl rfl rfl rfl rfl, PlainDot.matmul_zero_plain _ rfl rfl rfl rfl rfl rfl,
    broadcastTo_1b_ab_apply]
  exact congrArg₂ max rfl Ideal.ofBits_zero_f32

/-- The second convolution layer's tile at (r, c): the same function of its own operands. -/
theorem k1_apply (x0 x1 : Vec Ideal S5000x128 .f32) (x2 x3 : Vec Ideal S128x128 .f32) (x4 : Vec Ideal S1x128 .f32)
    (y : S5000x128.Idx) :
    Gen.k1_pay1 (F := Ideal) x0 x1 x2 x3 x4 y
      = Cert.Gnn.convRow (fun k => x0 (ix2 (y 0) k)) (fun k => x1 (ix2 (y 0) k)) x2 x3 (fun q => x4 (ix2 0 q)) (y 1) := by
  obtain ⟨p, q, rfl⟩ : ∃ (p : Fin 5000) (q : Fin 128), y = ix2 p q := ⟨y 0, y 1, eq_ix2 y⟩
  unfold Gen.k1_pay1 Cert.Gnn.convRow
  simp only [shapeCast_self]
  rw [maximumf_apply, addf_apply, addf_apply, broadcast_apply]
  simp only [matmul]
  rw [PlainDot.matmul_zero_plain _ rfl rfl rfl rfl rfl rfl, PlainDot.matmul_zero_plain _ rfl rfl rfl rfl rfl rfl,
    broadcastTo_1b_ab_apply]
  exact congrArg₂ max rfl Ideal.ofBits_zero_f32

/-- The third convolution layer's tile at (r, c): its body is the second layer's, term for term. -/
theorem k2_apply (x0 x1 : Vec Ideal S5000x128 .f32) (x2 x3 : Vec Ideal S128x128 .f32) (x4 : Vec Ideal S1x128 .f32)
    (y : S5000x128.Idx) :
    Gen.k2_pay1 (F := Ideal) x0 x1 x2 x3 x4 y
      = Cert.Gnn.convRow (fun k => x0 (ix2 (y 0) k)) (fun k => x1 (ix2 (y 0) k)) x2 x3 (fun q => x4 (ix2 0 q)) (y 1) :=
  k1_apply x0 x1 x2 x3 x4 y

/-- The edge network's tile at (r, c): the product of the hidden row r with column c of the second matrix, plus the
    second bias. The outer product's left factor at (r, k) is the hidden tile there — the maximum with 0 of the three
    first-layer products of row r (source, destination, edge features) plus the first bias — so each term of the
    outer sum is rewritten at its own k. -/
theorem k3_apply (x0 x1 : Vec Ideal S5000x128 .f32) (x2 : Vec Ideal S5000x16 .f32) (x3 x4 : Vec Ideal S128x128 .f32)
    (x5 : Vec Ideal S16x128 .f32) (x6 : Vec Ideal S1x128 .f32) (x7 : Vec Ideal S128x128 .f32) (x8 : Vec Ideal S1x128 .f32)
    (y : S5000x128.Idx) :
    Gen.k3_pay1 (F := Ideal) x0 x1 x2 x3 x4 x5 x6 x7 x8 y
      = Cert.Gnn.mlpRow (fun k => x0 (ix2 (y 0) k)) (fun k => x1 (ix2 (y 0) k)) (fun k => x2 (ix2 (y 0) k)) x3 x4 x5
          (fun q => x6 (ix2 0 q)) x7 (fun q => x8 (ix2 0 q)) (y 1) := by
  obtain ⟨p, q, rfl⟩ : ∃ (p : Fin 5000) (q : Fin 128), y = ix2 p q := ⟨y 0, y 1, eq_ix2 y⟩
  unfold Gen.k3_pay1 Cert.Gnn.mlpRow
  simp only [shapeCast_self]
  rw [addf_apply]
  simp only [matmul]
  rw [PlainDot.matmul_zero_plain _ rfl rfl rfl rfl rfl rfl, broadcastTo_1b_ab_apply]
  -- term k of the outer sum: the hidden tile at (p, k) times the second matrix at (k, q)
  refine congrArg₂ (· + ·) (Finset.sum_congr rfl fun k _ => congrArg₂ (· * ·) ?_ rfl) rfl
  unfold Cert.Gnn.hidRow
  rw [truncf_apply, maximumf_apply, addf_apply, addf_apply, addf_apply, broadcast_apply,
    PlainDot.matmul_zero_plain _ rfl rfl rfl rfl rfl rfl, PlainDot.matmul_zero_plain _ rfl rfl rfl rfl rfl rfl,
    PlainDot.matmul_zero_plain _ rfl rfl rfl rfl rfl rfl, broadcastTo_1b_ab_apply]
  exact congrArg₂ max rfl Ideal.ofBits_zero_f32

/-- The classifier's tile at (r, c): the product of row r with column c of the weights, plus the bias. -/
theorem k4_apply (x0 : Vec Ideal S5000x128 .f32) (x1 : Vec Ideal S128x4 .f32) (x2 : Vec Ideal S1x4 .f32) (y : S5000x4.Idx) :
    Gen.k4_pay1 (F := Ideal) x0 x1 x2 y = Cert.Gnn.linRow (fun k => x0 (ix2 (y 0) k)) x1 (fun q => x2 (ix2 0 q)) (y 1) := by
  obtain ⟨p, q, rfl⟩ : ∃ (p : Fin 5000) (q : Fin 4), y = ix2 p q := ⟨y 0, y 1, eq_ix2 y⟩
  unfold Gen.k4_pay1 Cert.Gnn.linRow
  simp only [shapeCast_self]
  rw [addf_apply]
  simp only [matmul]
  rw [PlainDot.matmul_zero_plain _ rfl rfl rfl rfl rfl rfl, broadcastTo_1b_ab_apply]
  rfl

end Cert.KernelIdeal.Pay

end
-- ==== Proof.Region0.lean ====
/-
  Tiled region 0: a convolution layer, tile by tile.

  The grid has 5 points; point t takes rows 5000·t … 5000·t + 4999 of each row-blocked input (all their columns), the
  whole of each parameter matrix and bias row, and writes back rows 5000·t … 5000·t + 4999 of the output. A tile's
  entry (r, c) depends on row r of the row-blocked tiles only, so the tile is the restriction of one whole-array
  function to those rows; the 5 row bands cover all 25000 nodes, so the output array ends holding that function.
-/
import proofs.«141989_j910533067387_1_alg».proof.Proof.Gen.KernelIdeal.Frame
import proofs.«141989_j910533067387_1_alg».proof.Proof.Rows
import proofs.«141989_j910533067387_1_alg».proof.Proof.KerPay
import Idealize.ShloMosaic.Lib.Pipeline.Value
import Idealize.ShloMosaic.Lib.ValueIdx

set_option maxRecDepth 16384
set_option maxHeartbeats 4000000

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the row-blocked windows and the output at block row t, the
    parameters at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is rows 5000·t … 5000·t + 4999 of the whole-array function of the region's entry arrays. -/
theorem flushed_eq (c : Dev nD) (t : Fin cfg0.N) :
    (dat0 V c).flushed 5 t = ((cfg0.win 5).blk t).view.read (Elt Ideal)
      (Cert.Gnn.convG (V c main_arg0) (V c main_v13) (V c main_v15) (V c main_v17) (fun q => V c main_v20 (ix2 0 q))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e0_0, e0_1, e1_0, e1_1, e2_0, e2_1, e3_0, e3_1, e4_0, e4_1, e5_0, e5_1⟩ := idx_facts t
  funext j
  show k0_pay1 (F := Ideal) (iblk0 V c 0 t) (iblk0 V c 1 t) (iblk0 V c 2 t) (iblk0 V c 3 t) (iblk0 V c 4 t) j
    = Cert.Gnn.convG (V c main_arg0) (V c main_v13) (V c main_v15) (V c main_v17) (fun q => V c main_v20 (ix2 0 q)) (((cfg0.win 5).blk t).view.emb j)
  refine (Cert.KernelIdeal.Pay.k0_apply _ _ _ _ _ j).trans ?_
  unfold Cert.Gnn.convG
  have hr0 : ∀ k : Fin 128, iblk0 V c 0 t (ix2 (j 0) k) = V c main_arg0 (ix2 ((((cfg0.win 5).blk t).view.emb j) 0) k) := fun k => by
    show V c main_arg0 (((cfg0.win 0).blk t).view.emb (ix2 (j 0) k)) = _
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have hr1 : ∀ k : Fin 128, iblk0 V c 1 t (ix2 (j 0) k) = V c main_v13 (ix2 ((((cfg0.win 5).blk t).view.emb j) 0) k) := fun k => by
    show V c main_v13 (((cfg0.win 1).blk t).view.emb (ix2 (j 0) k)) = _
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  have hw2 : iblk0 V c 2 t = V c main_v15 := by
    funext y
    show V c main_v15 (((cfg0.win 2).blk t).view.emb y) = V c main_v15 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have hw3 : iblk0 V c 3 t = V c main_v17 := by
    funext y
    show V c main_v17 (((cfg0.win 3).blk t).view.emb y) = V c main_v17 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hw4 : iblk0 V c 4 t = V c main_v20 := by
    funext y
    show V c main_v20 (((cfg0.win 4).blk t).view.emb y) = V c main_v20 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  have hc : (j 1 : Fin 128) = (((cfg0.win 5).blk t).view.emb j) 1 := Fin.ext (by
    show (j 1).val = win0_5.index t (1 : Fin 2) * 128 + 1 * (j 1).val; omega)
  rw [hw2, hw3, hw4, ← hc]
  simp only [hr0, hr1]

/-- An index of the output array lies in point t's block iff each coordinate lies in the block's range. -/
theorem mem_blk (t : Fin cfg0.N) (i : S25000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- Row r of the output lies in the block of point r / 5000. -/
theorem cover (i : S25000x128.Idx) :
    ∃ t : Fin cfg0.N, (cfg0.win 5).flush t = true ∧ i ∈ ((cfg0.win 5).blk t).view.set := by
  have hi0 : (i 0).val < 25000 := (i 0).isLt
  have hi1 : (i 1).val < 128 := (i 1).isLt
  have hN : grid0.N = 5 := N_0
  have ht : (i 0).val / 5000 < grid0.N := by omega
  refine ⟨⟨(i 0).val / 5000, ht⟩, flush0_5 _, ?_⟩
  rw [mem_blk]
  obtain ⟨e0_0, e0_1, e1_0, e1_1, e2_0, e2_1, e3_0, e3_1, e4_0, e4_1, e5_0, e5_1⟩ := idx_facts ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e5_1]; omega

/-- The region's output array after the region: the whole-array function of the region's entry arrays. -/
theorem final (c : Dev nD) :
    (dat0 V c).arrAt 5 cfg0.N = Cert.Gnn.convG (V c main_arg0) (V c main_v13) (V c main_v15) (V c main_v17) (fun q => V c main_v20 (ix2 0 q)) :=
  (dat0 V c).arrAt_eq_of_cover 5 _ (fun t _ => flushed_eq V c t) cover

end Cert.KernelIdeal.Reg0

end
-- ==== Proof.Region1.lean ====
/-
  Tiled region 1: a convolution layer, tile by tile.

  The grid has 5 points; point t takes rows 5000·t … 5000·t + 4999 of each row-blocked input (all their columns), the
  whole of each parameter matrix and bias row, and writes back rows 5000·t … 5000·t + 4999 of the output. A tile's
  entry (r, c) depends on row r of the row-blocked tiles only, so the tile is the restriction of one whole-array
  function to those rows; the 5 row bands cover all 25000 nodes, so the output array ends holding that function.
-/
import proofs.«141989_j910533067387_1_alg».proof.Proof.Gen.KernelIdeal.Frame
import proofs.«141989_j910533067387_1_alg».proof.Proof.Rows
import proofs.«141989_j910533067387_1_alg».proof.Proof.KerPay
import Idealize.ShloMosaic.Lib.Pipeline.Value
import Idealize.ShloMosaic.Lib.ValueIdx

set_option maxRecDepth 16384
set_option maxHeartbeats 4000000

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the row-blocked windows and the output at block row t, the
    parameters at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is rows 5000·t … 5000·t + 4999 of the whole-array function of the region's entry arrays. -/
theorem flushed_eq (c : Dev nD) (t : Fin cfg1.N) :
    (dat1 V c).flushed 5 t = ((cfg1.win 5).blk t).view.read (Elt Ideal)
      (Cert.Gnn.convG (V c main_v21) (V c main_v31) (V c main_v33) (V c main_v35) (fun q => V c main_v38 (ix2 0 q))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e0_0, e0_1, e1_0, e1_1, e2_0, e2_1, e3_0, e3_1, e4_0, e4_1, e5_0, e5_1⟩ := idx_facts t
  funext j
  show k1_pay1 (F := Ideal) (iblk1 V c 0 t) (iblk1 V c 1 t) (iblk1 V c 2 t) (iblk1 V c 3 t) (iblk1 V c 4 t) j
    = Cert.Gnn.convG (V c main_v21) (V c main_v31) (V c main_v33) (V c main_v35) (fun q => V c main_v38 (ix2 0 q)) (((cfg1.win 5).blk t).view.emb j)
  refine (Cert.KernelIdeal.Pay.k1_apply _ _ _ _ _ j).trans ?_
  unfold Cert.Gnn.convG
  have hr0 : ∀ k : Fin 128, iblk1 V c 0 t (ix2 (j 0) k) = V c main_v21 (ix2 ((((cfg1.win 5).blk t).view.emb j) 0) k) := fun k => by
    show V c main_v21 (((cfg1.win 0).blk t).view.emb (ix2 (j 0) k)) = _
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have hr1 : ∀ k : Fin 128, iblk1 V c 1 t (ix2 (j 0) k) = V c main_v31 (ix2 ((((cfg1.win 5).blk t).view.emb j) 0) k) := fun k => by
    show V c main_v31 (((cfg1.win 1).blk t).view.emb (ix2 (j 0) k)) = _
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have hw2 : iblk1 V c 2 t = V c main_v33 := by
    funext y
    show V c main_v33 (((cfg1.win 2).blk t).view.emb y) = V c main_v33 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hw3 : iblk1 V c 3 t = V c main_v35 := by
    funext y
    show V c main_v35 (((cfg1.win 3).blk t).view.emb y) = V c main_v35 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hw4 : iblk1 V c 4 t = V c main_v38 := by
    funext y
    show V c main_v38 (((cfg1.win 4).blk t).view.emb y) = V c main_v38 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  have hc : (j 1 : Fin 128) = (((cfg1.win 5).blk t).view.emb j) 1 := Fin.ext (by
    show (j 1).val = win1_5.index t (1 : Fin 2) * 128 + 1 * (j 1).val; omega)
  rw [hw2, hw3, hw4, ← hc]
  simp only [hr0, hr1]

/-- An index of the output array lies in point t's block iff each coordinate lies in the block's range. -/
theorem mem_blk (t : Fin cfg1.N) (i : S25000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Row r of the output lies in the block of point r / 5000. -/
theorem cover (i : S25000x128.Idx) :
    ∃ t : Fin cfg1.N, (cfg1.win 5).flush t = true ∧ i ∈ ((cfg1.win 5).blk t).view.set := by
  have hi0 : (i 0).val < 25000 := (i 0).isLt
  have hi1 : (i 1).val < 128 := (i 1).isLt
  have hN : grid1.N = 5 := N_1
  have ht : (i 0).val / 5000 < grid1.N := by omega
  refine ⟨⟨(i 0).val / 5000, ht⟩, flush1_5 _, ?_⟩
  rw [mem_blk]
  obtain ⟨e0_0, e0_1, e1_0, e1_1, e2_0, e2_1, e3_0, e3_1, e4_0, e4_1, e5_0, e5_1⟩ := idx_facts ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e5_1]; omega

/-- The region's output array after the region: the whole-array function of the region's entry arrays. -/
theorem final (c : Dev nD) :
    (dat1 V c).arrAt 5 cfg1.N = Cert.Gnn.convG (V c main_v21) (V c main_v31) (V c main_v33) (V c main_v35) (fun q => V c main_v38 (ix2 0 q)) :=
  (dat1 V c).arrAt_eq_of_cover 5 _ (fun t _ => flushed_eq V c t) cover

end Cert.KernelIdeal.Reg1

end
-- ==== Proof.Region2.lean ====
/-
  Tiled region 2: a convolution layer, tile by tile.

  The grid has 5 points; point t takes rows 5000·t … 5000·t + 4999 of each row-blocked input (all their columns), the
  whole of each parameter matrix and bias row, and writes back rows 5000·t … 5000·t + 4999 of the output. A tile's
  entry (r, c) depends on row r of the row-blocked tiles only, so the tile is the restriction of one whole-array
  function to those rows; the 5 row bands cover all 25000 nodes, so the output array ends holding that function.
-/
import proofs.«141989_j910533067387_1_alg».proof.Proof.Gen.KernelIdeal.Frame
import proofs.«141989_j910533067387_1_alg».proof.Proof.Rows
import proofs.«141989_j910533067387_1_alg».proof.Proof.KerPay
import Idealize.ShloMosaic.Lib.Pipeline.Value
import Idealize.ShloMosaic.Lib.ValueIdx

set_option maxRecDepth 16384
set_option maxHeartbeats 4000000

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the row-blocked windows and the output at block row t, the
    parameters at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is rows 5000·t … 5000·t + 4999 of the whole-array function of the region's entry arrays. -/
theorem flushed_eq (c : Dev nD) (t : Fin cfg2.N) :
    (dat2 V c).flushed 5 t = ((cfg2.win 5).blk t).view.read (Elt Ideal)
      (Cert.Gnn.convG (V c main_v39) (V c main_v49) (V c main_v51) (V c main_v53) (fun q => V c main_v56 (ix2 0 q))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e0_0, e0_1, e1_0, e1_1, e2_0, e2_1, e3_0, e3_1, e4_0, e4_1, e5_0, e5_1⟩ := idx_facts t
  funext j
  show k2_pay1 (F := Ideal) (iblk2 V c 0 t) (iblk2 V c 1 t) (iblk2 V c 2 t) (iblk2 V c 3 t) (iblk2 V c 4 t) j
    = Cert.Gnn.convG (V c main_v39) (V c main_v49) (V c main_v51) (V c main_v53) (fun q => V c main_v56 (ix2 0 q)) (((cfg2.win 5).blk t).view.emb j)
  refine (Cert.KernelIdeal.Pay.k2_apply _ _ _ _ _ j).trans ?_
  unfold Cert.Gnn.convG
  have hr0 : ∀ k : Fin 128, iblk2 V c 0 t (ix2 (j 0) k) = V c main_v39 (ix2 ((((cfg2.win 5).blk t).view.emb j) 0) k) := fun k => by
    show V c main_v39 (((cfg2.win 0).blk t).view.emb (ix2 (j 0) k)) = _
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  have hr1 : ∀ k : Fin 128, iblk2 V c 1 t (ix2 (j 0) k) = V c main_v49 (ix2 ((((cfg2.win 5).blk t).view.emb j) 0) k) := fun k => by
    show V c main_v49 (((cfg2.win 1).blk t).view.emb (ix2 (j 0) k)) = _
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  have hw2 : iblk2 V c 2 t = V c main_v51 := by
    funext y
    show V c main_v51 (((cfg2.win 2).blk t).view.emb y) = V c main_v51 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hw3 : iblk2 V c 3 t = V c main_v53 := by
    funext y
    show V c main_v53 (((cfg2.win 3).blk t).view.emb y) = V c main_v53 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have hw4 : iblk2 V c 4 t = V c main_v56 := by
    funext y
    show V c main_v56 (((cfg2.win 4).blk t).view.emb y) = V c main_v56 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  have hc : (j 1 : Fin 128) = (((cfg2.win 5).blk t).view.emb j) 1 := Fin.ext (by
    show (j 1).val = win2_5.index t (1 : Fin 2) * 128 + 1 * (j 1).val; omega)
  rw [hw2, hw3, hw4, ← hc]
  simp only [hr0, hr1]

/-- An index of the output array lies in point t's block iff each coordinate lies in the block's range. -/
theorem mem_blk (t : Fin cfg2.N) (i : S25000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v57).slice (win2_5.rect t)).set ↔ _
  rw [View.set_slice_whole, Rect.mem_set_unit]
  exact Iff.rfl

/-- Row r of the output lies in the block of point r / 5000. -/
theorem cover (i : S25000x128.Idx) :
    ∃ t : Fin cfg2.N, (cfg2.win 5).flush t = true ∧ i ∈ ((cfg2.win 5).blk t).view.set := by
  have hi0 : (i 0).val < 25000 := (i 0).isLt
  have hi1 : (i 1).val < 128 := (i 1).isLt
  have hN : grid2.N = 5 := N_2
  have ht : (i 0).val / 5000 < grid2.N := by omega
  refine ⟨⟨(i 0).val / 5000, ht⟩, flush2_5 _, ?_⟩
  rw [mem_blk]
  obtain ⟨e0_0, e0_1, e1_0, e1_1, e2_0, e2_1, e3_0, e3_1, e4_0, e4_1, e5_0, e5_1⟩ := idx_facts ⟨(i 0).val / 5000, ht⟩
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e5_1]; omega

/-- The region's output array after the region: the whole-array function of the region's entry arrays. -/
theorem final (c : Dev nD) :
    (dat2 V c).arrAt 5 cfg2.N = Cert.Gnn.convG (V c main_v39) (V c main_v49) (V c main_v51) (V c main_v53) (fun q => V c main_v56 (ix2 0 q)) :=
  (dat2 V c).arrAt_eq_of_cover 5 _ (fun t _ => flushed_eq V c t) cover

end Cert.KernelIdeal.Reg2

end
-- ==== Proof.Region3.lean ====
/-
  Tiled region 3: the edge network, tile by tile.

  The grid has 125 points; point t takes rows 5000·t … 5000·t + 4999 of each row-blocked input (all their columns), the
  whole of each parameter matrix and bias row, and writes back rows 5000·t … 5000·t + 4999 of the output. A tile's
  entry (r, c) depends on row r of the row-blocked tiles only, so the tile is the restriction of one whole-array
  function to those rows; the 125 row bands cover all 625000 edges, so the output array ends holding that function.
-/
import proofs.«141989_j910533067387_1_alg».proof.Proof.Gen.KernelIdeal.Frame
import proofs.«141989_j910533067387_1_alg».proof.Proof.Rows
import proofs.«141989_j910533067387_1_alg».proof.Proof.KerPay
import Idealize.ShloMosaic.Lib.Pipeline.Value
import Idealize.ShloMosaic.Lib.ValueIdx

set_option maxRecDepth 16384
set_option maxHeartbeats 4000000

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the row-blocked windows and the output at block row t, the
    parameters at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- What point t writes back is rows 5000·t … 5000·t + 4999 of the whole-array function of the region's entry arrays. -/
theorem flushed_eq (c : Dev nD) (t : Fin cfg3.N) :
    (dat3 V c).flushed 9 t = ((cfg3.win 9).blk t).view.read (Elt Ideal)
      (Cert.Gnn.mlpG (V c main_v64) (V c main_v71) (V c main_arg2) (V c main_v72) (V c main_v73) (V c main_v74) (fun q => V c main_v75 (ix2 0 q)) (V c main_arg8) (fun q => V c main_v76 (ix2 0 q))) := by
  show (cfg3.win 9).cut (grid3.coords t) ((dat3 V c).after 9 t) = _
  rw [after3_9]
  unfold out3_9
  rw [View.canon_unit_zero hz]
  simp only [View.ld_unit_zero (S := S5000x128) hz, View.ld_unit_zero (S := S5000x16) hz, View.ld_unit_zero (S := S128x128) hz, View.ld_unit_zero (S := S16x128) hz, View.ld_unit_zero (S := S1x128) hz]
  obtain ⟨e0_0, e0_1, e1_0, e1_1, e2_0, e2_1, e3_0, e3_1, e4_0, e4_1, e5_0, e5_1, e6_0, e6_1, e7_0, e7_1, e8_0, e8_1, e9_0, e9_1⟩ := idx_facts t
  funext j
  show k3_pay1 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) j
    = Cert.Gnn.mlpG (V c main_v64) (V c main_v71) (V c main_arg2) (V c main_v72) (V c main_v73) (V c main_v74) (fun q => V c main_v75 (ix2 0 q)) (V c main_arg8) (fun q => V c main_v76 (ix2 0 q)) (((cfg3.win 9).blk t).view.emb j)
  refine (Cert.KernelIdeal.Pay.k3_apply _ _ _ _ _ _ _ _ _ j).trans ?_
  unfold Cert.Gnn.mlpG
  have hr0 : ∀ k : Fin 128, iblk3 V c 0 t (ix2 (j 0) k) = V c main_v64 (ix2 ((((cfg3.win 9).blk t).view.emb j) 0) k) := fun k => by
    show V c main_v64 (((cfg3.win 0).blk t).view.emb (ix2 (j 0) k)) = _
    refine congrArg _ (funext fun a => Fin.ext ?_)
    match a with
    | ⟨0, _⟩ => show win3_0.index t (0 : Fin 2) * 5000 + 1 * (j 0).val = win3_9.index t (0 : Fin 2) * 5000 + 1 * (j 0).val; omega
    | ⟨1, _⟩ => show win3_0.index t (1 : Fin 2) * 128 + 1 * k.val = k.val; omega
  have hr1 : ∀ k : Fin 128, iblk3 V c 1 t (ix2 (j 0) k) = V c main_v71 (ix2 ((((cfg3.win 9).blk t).view.emb j) 0) k) := fun k => by
    show V c main_v71 (((cfg3.win 1).blk t).view.emb (ix2 (j 0) k)) = _
    refine congrArg _ (funext fun a => Fin.ext ?_)
    match a with
    | ⟨0, _⟩ => show win3_1.index t (0 : Fin 2) * 5000 + 1 * (j 0).val = win3_9.index t (0 : Fin 2) * 5000 + 1 * (j 0).val; omega
    | ⟨1, _⟩ => show win3_1.index t (1 : Fin 2) * 128 + 1 * k.val = k.val; omega
  have hr2 : ∀ k : Fin 16, iblk3 V c 2 t (ix2 (j 0) k) = V c main_arg2 (ix2 ((((cfg3.win 9).blk t).view.emb j) 0) k) := fun k => by
    show V c main_arg2 (((cfg3.win 2).blk t).view.emb (ix2 (j 0) k)) = _
    refine congrArg _ (funext fun a => Fin.ext ?_)
    match a with
    | ⟨0, _⟩ => show win3_2.index t (0 : Fin 2) * 5000 + 1 * (j 0).val = win3_9.index t (0 : Fin 2) * 5000 + 1 * (j 0).val; omega
    | ⟨1, _⟩ => show win3_2.index t (1 : Fin 2) * 16 + 1 * k.val = k.val; omega
  have hw3 : iblk3 V c 3 t = V c main_v72 := by
    funext y
    show V c main_v72 (((cfg3.win 3).blk t).view.emb y) = V c main_v72 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 128 + 1 * (y 1).val = (y 1).val; omega
  have hw4 : iblk3 V c 4 t = V c main_v73 := by
    funext y
    show V c main_v73 (((cfg3.win 4).blk t).view.emb y) = V c main_v73 y
    refine congrArg _ (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  have hw5 : iblk3 V c 5 t = V c main_v74 := by
    funext y
    show V c main_v74 (((cfg3.win 5).blk t).view.emb y) = V c main_v74 y
    refine congrArg _ (funext fun a => Fin.ext ?_)
    match a with
    | ⟨0, _⟩ => show win3_5.index t (0 : Fin 2) * 16 + 1 * (y 0).val = (y 0).val; omega
    | ⟨1, _⟩ => show win3_5.index t (1 : Fin 2) * 128 + 1 * (y 1).val = (y 1).val; omega
  have hw6 : iblk3 V c 6 t = V c main_v75 := by
    funext y
    show V c main_v75 (((cfg3.win 6).blk t).view.emb y) = V c main_v75 y
    refine congrArg _ (funext fun a => Fin.ext ?_)
    match a with
    | ⟨0, _⟩ => show win3_6.index t (0 : Fin 2) * 1 + 1 * (y 0).val = (y 0).val; omega
    | ⟨1, _⟩ => show win3_6.index t (1 : Fin 2) * 128 + 1 * (y 1).val = (y 1).val; omega
  have hw7 : iblk3 V c 7 t = V c main_arg8 := by
    funext y
    show V c main_arg8 (((cfg3.win 7).blk t).view.emb y) = V c main_arg8 y
    refine congrArg _ (funext fun a => Fin.ext ?_)
    match a with
    | ⟨0, _⟩ => show win3_7.index t (0 : Fin 2) * 128 + 1 * (y 0).val = (y 0).val; omega
    | ⟨1, _⟩ => show win3_7.index t (1 : Fin 2) * 128 + 1 * (y 1).val = (y 1).val; omega
  have hw8 : iblk3 V c 8 t = V c main_v76 := by
    funext y
    show V c main_v76 (((cfg3.win 8).blk t).view.emb y) = V c main_v76 y
    refine congrArg _ (funext fun a => Fin.ext ?_)
    match a with
    | ⟨0, _⟩ => show win3_8.index t (0 : Fin 2) * 1 + 1 * (y 0).val = (y 0).val; omega
    | ⟨1, _⟩ => show win3_8.index t (1 : Fin 2) * 128 + 1 * (y 1).val = (y 1).val; omega
  have hc : (j 1 : Fin 128) = (((cfg3.win 9).blk t).view.emb j) 1 := Fin.ext (by
    show (j 1).val = win3_9.index t (1 : Fin 2) * 128 + 1 * (j 1).val; omega)
  rw [hw3, hw4, hw5, hw6, hw7, hw8, ← hc]
  simp only [hr0, hr1, hr2]

/-- An index of the output array lies in point t's block iff each coordinate lies in the block's range. -/
theorem mem_blk (t : Fin cfg3.N) (i : S625000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v77).slice (win3_9.rect t)).set ↔ _
  rw [View.set_slice_whole, Rect.mem_set_unit]
  exact Iff.rfl

/-- Row r of the output lies in the block of point r / 5000. -/
theorem cover (i : S625000x128.Idx) :
    ∃ t : Fin cfg3.N, (cfg3.win 9).flush t = true ∧ i ∈ ((cfg3.win 9).blk t).view.set := by
  have hi0 : (i 0).val < 625000 := (i 0).isLt
  have hi1 : (i 1).val < 128 := (i 1).isLt
  have hN : grid3.N = 125 := N_3
  have ht : (i 0).val / 5000 < grid3.N := by omega
  refine ⟨⟨(i 0).val / 5000, ht⟩, flush3_9 _, ?_⟩
  rw [mem_blk]
  obtain ⟨e0_0, e0_1, e1_0, e1_1, e2_0, e2_1, e3_0, e3_1, e4_0, e4_1, e5_0, e5_1, e6_0, e6_1, e7_0, e7_1, e8_0, e8_1, e9_0, e9_1⟩ := idx_facts ⟨(i 0).val / 5000, ht⟩
  intro a
  match a with
  | ⟨0, _⟩ =>
    show win3_9.index ⟨(i 0).val / 5000, ht⟩ (0 : Fin 2) * 5000 ≤ (i 0).val ∧ (i 0).val < win3_9.index ⟨(i 0).val / 5000, ht⟩ (0 : Fin 2) * 5000 + 5000
    rw [e9_0]; show (i 0).val / 5000 * 5000 ≤ (i 0).val ∧ (i 0).val < (i 0).val / 5000 * 5000 + 5000; omega
  | ⟨1, _⟩ =>
    show win3_9.index ⟨(i 0).val / 5000, ht⟩ (1 : Fin 2) * 128 ≤ (i 1).val ∧ (i 1).val < win3_9.index ⟨(i 0).val / 5000, ht⟩ (1 : Fin 2) * 128 + 128
    rw [e9_1]; omega

/-- The region's output array after the region: the whole-array function of the region's entry arrays. -/
theorem final (c : Dev nD) :
    (dat3 V c).arrAt 9 cfg3.N = Cert.Gnn.mlpG (V c main_v64) (V c main_v71) (V c main_arg2) (V c main_v72) (V c main_v73) (V c main_v74) (fun q => V c main_v75 (ix2 0 q)) (V c main_arg8) (fun q => V c main_v76 (ix2 0 q)) :=
  (dat3 V c).arrAt_eq_of_cover 9 _ (fun t _ => flushed_eq V c t) cover

end Cert.KernelIdeal.Reg3

end
-- ==== Proof.Region4.lean ====
/-
  Tiled region 4: the classifier, tile by tile.

  The grid has 5 points; point t takes rows 5000·t … 5000·t + 4999 of each row-blocked input (all 128 columns), the
  whole of each parameter matrix and bias row, and writes back rows 5000·t … 5000·t + 4999 of the output. A tile's
  entry (r, c) depends on row r of the row-blocked tiles only, so the tile is the restriction of one whole-array
  function to those rows; the 5 row bands cover all 25000 nodes, so the output array ends holding that function.
-/
import proofs.«141989_j910533067387_1_alg».proof.Proof.Gen.KernelIdeal.Frame
import proofs.«141989_j910533067387_1_alg».proof.Proof.Rows
import proofs.«141989_j910533067387_1_alg».proof.Proof.KerPay
import Idealize.ShloMosaic.Lib.Pipeline.Value
import Idealize.ShloMosaic.Lib.ValueIdx

set_option maxRecDepth 16384
set_option maxHeartbeats 4000000

noncomputable section

namespace Cert.KernelIdeal.Reg4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the row-blocked windows and the output at block row t, the
    parameters at the origin. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is rows 5000·t … 5000·t + 4999 of the whole-array function of the region's entry arrays. -/
theorem flushed_eq (c : Dev nD) (t : Fin cfg4.N) :
    (dat4 V c).flushed 3 t = ((cfg4.win 3).blk t).view.read (Elt Ideal)
      (Cert.Gnn.linG (V c main_v85) (V c main_arg10) (fun q => V c main_v86 (ix2 0 q))) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x4) hz, View.ld_unit_zero (S := S1x4) hz, View.ld_unit_zero (S := S5000x4) hz]
  obtain ⟨e0_0, e0_1, e1_0, e1_1, e2_0, e2_1, e3_0, e3_1⟩ := idx_facts t
  funext j
  show k4_pay1 (F := Ideal) (iblk4 V c 0 t) (iblk4 V c 1 t) (iblk4 V c 2 t) j
    = Cert.Gnn.linG (V c main_v85) (V c main_arg10) (fun q => V c main_v86 (ix2 0 q)) (((cfg4.win 3).blk t).view.emb j)
  refine (Cert.KernelIdeal.Pay.k4_apply _ _ _ j).trans ?_
  unfold Cert.Gnn.linG
  have hr0 : ∀ k : Fin 128, iblk4 V c 0 t (ix2 (j 0) k) = V c main_v85 (ix2 ((((cfg4.win 3).blk t).view.emb j) 0) k) := fun k => by
    show V c main_v85 (((cfg4.win 0).blk t).view.emb (ix2 (j 0) k)) = _
    refine congrArg _ (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  have hw1 : iblk4 V c 1 t = V c main_arg10 := by
    funext y
    show V c main_arg10 (((cfg4.win 1).blk t).view.emb y) = V c main_arg10 y
    refine congrArg _ (funext fun a => Fin.ext ?_)
    match a with
    | ⟨0, _⟩ => show win4_1.index t (0 : Fin 2) * 128 + 1 * (y 0).val = (y 0).val; omega
    | ⟨1, _⟩ => show win4_1.index t (1 : Fin 2) * 4 + 1 * (y 1).val = (y 1).val; omega
  have hw2 : iblk4 V c 2 t = V c main_v86 := by
    funext y
    show V c main_v86 (((cfg4.win 2).blk t).view.emb y) = V c main_v86 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 4 + 1 * (y 1).val = (y 1).val; omega
  have hc : (j 1 : Fin 4) = (((cfg4.win 3).blk t).view.emb j) 1 := Fin.ext (by
    show (j 1).val = win4_3.index t (1 : Fin 2) * 4 + 1 * (j 1).val; omega)
  rw [hw1, hw2, ← hc]
  simp only [hr0]

/-- An index of the output array lies in point t's block iff each coordinate lies in the block's range. -/
theorem mem_blk (t : Fin cfg4.N) (i : S25000x4.Idx) :
    i ∈ ((cfg4.win 3).blk t).view.set ↔ ∀ a : Fin 2, win4_3.index t a * S5000x4.size a ≤ (i a).val ∧ (i a).val < win4_3.index t a * S5000x4.size a + S5000x4.size a := by
  show i ∈ ((View.whole main_v87).slice (win4_3.rect t)).set ↔ _
  rw [View.set_slice_whole, Rect.mem_set_unit]
  exact Iff.rfl

/-- Row r of the output lies in the block of point r / 5000. -/
theorem cover (i : S25000x4.Idx) :
    ∃ t : Fin cfg4.N, (cfg4.win 3).flush t = true ∧ i ∈ ((cfg4.win 3).blk t).view.set := by
  have hi0 : (i 0).val < 25000 := (i 0).isLt
  have hi1 : (i 1).val < 4 := (i 1).isLt
  have hN : grid4.N = 5 := N_4
  have ht : (i 0).val / 5000 < grid4.N := by omega
  refine ⟨⟨(i 0).val / 5000, ht⟩, flush4_3 _, ?_⟩
  rw [mem_blk]
  obtain ⟨e0_0, e0_1, e1_0, e1_1, e2_0, e2_1, e3_0, e3_1⟩ := idx_facts ⟨(i 0).val / 5000, ht⟩
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e3_0]; show (i 0).val / 5000 * 5000 ≤ (i 0).val ∧ (i 0).val < (i 0).val / 5000 * 5000 + 5000; omega
  | ⟨1, _⟩ =>
    show win4_3.index ⟨(i 0).val / 5000, ht⟩ (1 : Fin 2) * 4 ≤ (i 1).val ∧ (i 1).val < win4_3.index ⟨(i 0).val / 5000, ht⟩ (1 : Fin 2) * 4 + 4
    rw [e3_1]; omega

/-- The region's output array after the region: the whole-array function of the region's entry arrays. -/
theorem final (c : Dev nD) :
    (dat4 V c).arrAt 3 cfg4.N = Cert.Gnn.linG (V c main_v85) (V c main_arg10) (fun q => V c main_v86 (ix2 0 q)) :=
  (dat4 V c).arrAt_eq_of_cover 3 _ (fun t _ => flushed_eq V c t) cover

end Cert.KernelIdeal.Reg4

end
-- ==== Proof.HostChain.lean ====
/-
  The kernel's result buffer, read back through its ten segments to the launch memory.

  The contents of every buffer at each boundary follow from the boundary before: a host stretch writes each of its
  results as its operation applied to what its operands held, and leaves every other buffer alone; a tiled region
  leaves its input arrays and every buffer that is not one of its arrays alone, and its output array holds the
  whole-array function of its entry arrays. Walking each buffer a later stage reads back to where it was written gives
  every stage's operands, and in the end the result buffer, as terms of the arguments at launch.
-/
import proofs.«141989_j910533067387_1_alg».proof.Proof.Gen.KernelIdeal.Frame
import proofs.«141989_j910533067387_1_alg».proof.Proof.KerStages
import proofs.«141989_j910533067387_1_alg».proof.Proof.Region0
import proofs.«141989_j910533067387_1_alg».proof.Proof.Region1
import proofs.«141989_j910533067387_1_alg».proof.Proof.Region2
import proofs.«141989_j910533067387_1_alg».proof.Proof.Region3
import proofs.«141989_j910533067387_1_alg».proof.Proof.Region4
import Idealize.ShloMosaic.Lib.StableHlo.Run

set_option maxRecDepth 16384
set_option maxHeartbeats 4000000

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- A buffer no operation of a host stretch writes holds after the stretch what it held before. -/
macro "host_keep " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

theorem host_main_v1 (c : Dev nD) : W1 m ρ c (Proc.devRef .tc main_v1) = Stages.srcOf (m ((c : Thread nD τ).loc main_arg1)) := by
  show StableHlo.after hostOps0 (W0 m ρ c) (Proc.devRef .tc main_v1) = _
  after_results_simp
  rfl

theorem at8_main_v1 (c : Dev nD) : W8 m ρ c (Proc.devRef .tc main_v1) = Stages.srcOf (m ((c : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := by host_keep hostOps3 main_v1
    _ = W5 m ρ c (Proc.devRef .tc main_v1) := W6_of_ne m ρ c main_v1 (by decide)
    _ = W4 m ρ c (Proc.devRef .tc main_v1) := by host_keep hostOps2 main_v1
    _ = W3 m ρ c (Proc.devRef .tc main_v1) := W4_of_ne m ρ c main_v1 (by decide)
    _ = W2 m ρ c (Proc.devRef .tc main_v1) := by host_keep hostOps1 main_v1
    _ = W1 m ρ c (Proc.devRef .tc main_v1) := W2_of_ne m ρ c main_v1 (by decide)
    _ = Stages.srcOf (m ((c : Thread nD τ).loc main_arg1)) := host_main_v1 m ρ c

theorem at6_main_v1 (c : Dev nD) : W6 m ρ c (Proc.devRef .tc main_v1) = Stages.srcOf (m ((c : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := by host_keep hostOps2 main_v1
    _ = W3 m ρ c (Proc.devRef .tc main_v1) := W4_of_ne m ρ c main_v1 (by decide)
    _ = W2 m ρ c (Proc.devRef .tc main_v1) := by host_keep hostOps1 main_v1
    _ = W1 m ρ c (Proc.devRef .tc main_v1) := W2_of_ne m ρ c main_v1 (by decide)
    _ = Stages.srcOf (m ((c : Thread nD τ).loc main_arg1)) := host_main_v1 m ρ c

theorem at1_main_arg0 (c : Dev nD) : W1 m ρ c (Proc.devRef .tc main_arg0) = (m ((c : Thread nD τ).loc main_arg0)) :=
  calc W1 m ρ c (Proc.devRef .tc main_arg0)
    _ = W0 m ρ c (Proc.devRef .tc main_arg0) := by host_keep hostOps0 main_arg0
    _ = (m ((c : Thread nD τ).loc main_arg0)) := rfl

theorem host_main_v13 (c : Dev nD) : W1 m ρ c (Proc.devRef .tc main_v13) = Stages.agg (F := Ideal) (m ((c : Thread nD τ).loc main_arg0)) (m ((c : Thread nD τ).loc main_arg1)) := by
  show StableHlo.after hostOps0 (W0 m ρ c) (Proc.devRef .tc main_v13) = _
  after_results_simp
  rfl

theorem at1_main_v13 (c : Dev nD) : W1 m ρ c (Proc.devRef .tc main_v13) = Stages.agg (F := Ideal) (m ((c : Thread nD τ).loc main_arg0)) (m ((c : Thread nD τ).loc main_arg1)) := host_main_v13 m ρ c

theorem host_main_v15 (c : Dev nD) : W1 m ρ c (Proc.devRef .tc main_v15) = Stages.w0 (F := Ideal) (m ((c : Thread nD τ).loc main_arg3)) := by
  show StableHlo.after hostOps0 (W0 m ρ c) (Proc.devRef .tc main_v15) = _
  after_results_simp
  rfl

theorem at1_main_v15 (c : Dev nD) : W1 m ρ c (Proc.devRef .tc main_v15) = Stages.w0 (F := Ideal) (m ((c : Thread nD τ).loc main_arg3)) := host_main_v15 m ρ c

theorem host_main_v17 (c : Dev nD) : W1 m ρ c (Proc.devRef .tc main_v17) = Stages.w0 (F := Ideal) (m ((c : Thread nD τ).loc main_arg4)) := by
  show StableHlo.after hostOps0 (W0 m ρ c) (Proc.devRef .tc main_v17) = _
  after_results_simp
  rfl

theorem at1_main_v17 (c : Dev nD) : W1 m ρ c (Proc.devRef .tc main_v17) = Stages.w0 (F := Ideal) (m ((c : Thread nD τ).loc main_arg4)) := host_main_v17 m ρ c

theorem host_main_v20 (c : Dev nD) : W1 m ρ c (Proc.devRef .tc main_v20) = Stages.asRow (F := Ideal) (Stages.b0 (F := Ideal) (m ((c : Thread nD τ).loc main_arg5))) := by
  show StableHlo.after hostOps0 (W0 m ρ c) (Proc.devRef .tc main_v20) = _
  after_results_simp
  rfl

theorem at1_main_v20 (c : Dev nD) : W1 m ρ c (Proc.devRef .tc main_v20) = Stages.asRow (F := Ideal) (Stages.b0 (F := Ideal) (m ((c : Thread nD τ).loc main_arg5))) := host_main_v20 m ρ c

theorem out_0 (c : Dev nD) : W2 m ρ c (Proc.devRef .tc main_v21) = (Stages.kh1 (m ((c : Thread nD τ).loc main_arg0)) (m ((c : Thread nD τ).loc main_arg1)) (m ((c : Thread nD τ).loc main_arg3)) (m ((c : Thread nD τ).loc main_arg4)) (m ((c : Thread nD τ).loc main_arg5))) := by
  refine (W2_arr m ρ c 5).trans ?_
  rw [Reg0.final (V1 m ρ) c]
  have e0 : V1 m ρ c main_arg0 = (m ((c : Thread nD τ).loc main_arg0)) := at1_main_arg0 m ρ c
  have e1 : V1 m ρ c main_v13 = Stages.agg (F := Ideal) (m ((c : Thread nD τ).loc main_arg0)) (m ((c : Thread nD τ).loc main_arg1)) := at1_main_v13 m ρ c
  have e2 : V1 m ρ c main_v15 = Stages.w0 (F := Ideal) (m ((c : Thread nD τ).loc main_arg3)) := at1_main_v15 m ρ c
  have e3 : V1 m ρ c main_v17 = Stages.w0 (F := Ideal) (m ((c : Thread nD τ).loc main_arg4)) := at1_main_v17 m ρ c
  have e4 : V1 m ρ c main_v20 = Stages.asRow (F := Ideal) (Stages.b0 (F := Ideal) (m ((c : Thread nD τ).loc main_arg5))) := at1_main_v20 m ρ c
  rw [e0, e1, e2, e3, e4]
  rfl

theorem at3_main_v21 (c : Dev nD) : W3 m ρ c (Proc.devRef .tc main_v21) = (Stages.kh1 (m ((c : Thread nD τ).loc main_arg0)) (m ((c : Thread nD τ).loc main_arg1)) (m ((c : Thread nD τ).loc main_arg3)) (m ((c : Thread nD τ).loc main_arg4)) (m ((c : Thread nD τ).loc main_arg5))) :=
  calc W3 m ρ c (Proc.devRef .tc main_v21)
    _ = W2 m ρ c (Proc.devRef .tc main_v21) := by host_keep hostOps1 main_v21
    _ = (Stages.kh1 (m ((c : Thread nD τ).loc main_arg0)) (m ((c : Thread nD τ).loc main_arg1)) (m ((c : Thread nD τ).loc main_arg3)) (m ((c : Thread nD τ).loc main_arg4)) (m ((c : Thread nD τ).loc main_arg5))) := out_0 m ρ c

theorem at2_main_v1 (c : Dev nD) : W2 m ρ c (Proc.devRef .tc main_v1) = Stages.srcOf (m ((c : Thread nD τ).loc main_arg1)) :=
  calc W2 m ρ c (Proc.devRef .tc main_v1)
    _ = W1 m ρ c (Proc.devRef .tc main_v1) := W2_of_ne m ρ c main_v1 (by decide)
    _ = Stages.srcOf (m ((c : Thread nD τ).loc main_arg1)) := host_main_v1 m ρ c

theorem at2_main_v21 (c : Dev nD) : W2 m ρ c (Proc.devRef .tc main_v21) = (Stages.kh1 (m ((c : Thread nD τ).loc main_arg0)) (m ((c : Thread nD τ).loc main_arg1)) (m ((c : Thread nD τ).loc main_arg3)) (m ((c : Thread nD τ).loc main_arg4)) (m ((c : Thread nD τ).loc main_arg5))) := out_0 m ρ c

theorem host_main_v3 (c : Dev nD) : W1 m ρ c (Proc.devRef .tc main_v3) = Stages.dstOf (m ((c : Thread nD τ).loc main_arg1)) := by
  show StableHlo.after hostOps0 (W0 m ρ c) (Proc.devRef .tc main_v3) = _
  after_results_simp
  rfl

theorem at2_main_v3 (c : Dev nD) : W2 m ρ c (Proc.devRef .tc main_v3) = Stages.dstOf (m ((c : Thread nD τ).loc main_arg1)) :=
  calc W2 m ρ c (Proc.devRef .tc main_v3)
    _ = W1 m ρ c (Proc.devRef .tc main_v3) := W2_of_ne m ρ c main_v3 (by decide)
    _ = Stages.dstOf (m ((c : Thread nD τ).loc main_arg1)) := host_main_v3 m ρ c

theorem at2_main_arg3 (c : Dev nD) : W2 m ρ c (Proc.devRef .tc main_arg3) = (m ((c : Thread nD τ).loc main_arg3)) :=
  calc W2 m ρ c (Proc.devRef .tc main_arg3)
    _ = W1 m ρ c (Proc.devRef .tc main_arg3) := W2_of_ne m ρ c main_arg3 (by decide)
    _ = W0 m ρ c (Proc.devRef .tc main_arg3) := by host_keep hostOps0 main_arg3
    _ = (m ((c : Thread nD τ).loc main_arg3)) := rfl

theorem at2_main_arg4 (c : Dev nD) : W2 m ρ c (Proc.devRef .tc main_arg4) = (m ((c : Thread nD τ).loc main_arg4)) :=
  calc W2 m ρ c (Proc.devRef .tc main_arg4)
    _ = W1 m ρ c (Proc.devRef .tc main_arg4) := W2_of_ne m ρ c main_arg4 (by decide)
    _ = W0 m ρ c (Proc.devRef .tc main_arg4) := by host_keep hostOps0 main_arg4
    _ = (m ((c : Thread nD τ).loc main_arg4)) := rfl

theorem at2_main_arg5 (c : Dev nD) : W2 m ρ c (Proc.devRef .tc main_arg5) = (m ((c : Thread nD τ).loc main_arg5)) :=
  calc W2 m ρ c (Proc.devRef .tc main_arg5)
    _ = W1 m ρ c (Proc.devRef .tc main_arg5) := W2_of_ne m ρ c main_arg5 (by decide)
    _ = W0 m ρ c (Proc.devRef .tc main_arg5) := by host_keep hostOps0 main_arg5
    _ = (m ((c : Thread nD τ).loc main_arg5)) := rfl

theorem host_main_v31 (c : Dev nD) : W3 m ρ c (Proc.devRef .tc main_v31) = Stages.agg (F := Ideal) (Stages.kh1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps1 (W2 m ρ c) (Proc.devRef .tc main_v31) = _
  after_results_simp
  simp only [at2_main_v1 m ρ c, at2_main_v21 m ρ c, at2_main_v3 m ρ c, at2_main_arg3 m ρ c, at2_main_arg4 m ρ c, at2_main_arg5 m ρ c]
  rfl

theorem at3_main_v31 (c : Dev nD) : W3 m ρ c (Proc.devRef .tc main_v31) = Stages.agg (F := Ideal) (Stages.kh1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := host_main_v31 m ρ c

theorem host_main_v33 (c : Dev nD) : W3 m ρ c (Proc.devRef .tc main_v33) = Stages.w1 (F := Ideal) (m ((c : Thread nD τ).loc main_arg3)) := by
  show StableHlo.after hostOps1 (W2 m ρ c) (Proc.devRef .tc main_v33) = _
  after_results_simp
  simp only [at2_main_v1 m ρ c, at2_main_v21 m ρ c, at2_main_v3 m ρ c, at2_main_arg3 m ρ c, at2_main_arg4 m ρ c, at2_main_arg5 m ρ c]
  rfl

theorem at3_main_v33 (c : Dev nD) : W3 m ρ c (Proc.devRef .tc main_v33) = Stages.w1 (F := Ideal) (m ((c : Thread nD τ).loc main_arg3)) := host_main_v33 m ρ c

theorem host_main_v35 (c : Dev nD) : W3 m ρ c (Proc.devRef .tc main_v35) = Stages.w1 (F := Ideal) (m ((c : Thread nD τ).loc main_arg4)) := by
  show StableHlo.after hostOps1 (W2 m ρ c) (Proc.devRef .tc main_v35) = _
  after_results_simp
  simp only [at2_main_v1 m ρ c, at2_main_v21 m ρ c, at2_main_v3 m ρ c, at2_main_arg3 m ρ c, at2_main_arg4 m ρ c, at2_main_arg5 m ρ c]
  rfl

theorem at3_main_v35 (c : Dev nD) : W3 m ρ c (Proc.devRef .tc main_v35) = Stages.w1 (F := Ideal) (m ((c : Thread nD τ).loc main_arg4)) := host_main_v35 m ρ c

theorem host_main_v38 (c : Dev nD) : W3 m ρ c (Proc.devRef .tc main_v38) = Stages.asRow (F := Ideal) (Stages.b1 (F := Ideal) (m ((c : Thread nD τ).loc main_arg5))) := by
  show StableHlo.after hostOps1 (W2 m ρ c) (Proc.devRef .tc main_v38) = _
  after_results_simp
  simp only [at2_main_v1 m ρ c, at2_main_v21 m ρ c, at2_main_v3 m ρ c, at2_main_arg3 m ρ c, at2_main_arg4 m ρ c, at2_main_arg5 m ρ c]
  rfl

theorem at3_main_v38 (c : Dev nD) : W3 m ρ c (Proc.devRef .tc main_v38) = Stages.asRow (F := Ideal) (Stages.b1 (F := Ideal) (m ((c : Thread nD τ).loc main_arg5))) := host_main_v38 m ρ c

theorem out_1 (c : Dev nD) : W4 m ρ c (Proc.devRef .tc main_v39) = (Stages.kh2 (m ((c : Thread nD τ).loc main_arg0)) (m ((c : Thread nD τ).loc main_arg1)) (m ((c : Thread nD τ).loc main_arg3)) (m ((c : Thread nD τ).loc main_arg4)) (m ((c : Thread nD τ).loc main_arg5))) := by
  refine (W4_arr m ρ c 5).trans ?_
  rw [Reg1.final (V3 m ρ) c]
  have e0 : V3 m ρ c main_v21 = (Stages.kh1 (m ((c : Thread nD τ).loc main_arg0)) (m ((c : Thread nD τ).loc main_arg1)) (m ((c : Thread nD τ).loc main_arg3)) (m ((c : Thread nD τ).loc main_arg4)) (m ((c : Thread nD τ).loc main_arg5))) := at3_main_v21 m ρ c
  have e1 : V3 m ρ c main_v31 = Stages.agg (F := Ideal) (Stages.kh1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := at3_main_v31 m ρ c
  have e2 : V3 m ρ c main_v33 = Stages.w1 (F := Ideal) (m ((c : Thread nD τ).loc main_arg3)) := at3_main_v33 m ρ c
  have e3 : V3 m ρ c main_v35 = Stages.w1 (F := Ideal) (m ((c : Thread nD τ).loc main_arg4)) := at3_main_v35 m ρ c
  have e4 : V3 m ρ c main_v38 = Stages.asRow (F := Ideal) (Stages.b1 (F := Ideal) (m ((c : Thread nD τ).loc main_arg5))) := at3_main_v38 m ρ c
  rw [e0, e1, e2, e3, e4]
  rfl

theorem at5_main_v39 (c : Dev nD) : W5 m ρ c (Proc.devRef .tc main_v39) = (Stages.kh2 (m ((c : Thread nD τ).loc main_arg0)) (m ((c : Thread nD τ).loc main_arg1)) (m ((c : Thread nD τ).loc main_arg3)) (m ((c : Thread nD τ).loc main_arg4)) (m ((c : Thread nD τ).loc main_arg5))) :=
  calc W5 m ρ c (Proc.devRef .tc main_v39)
    _ = W4 m ρ c (Proc.devRef .tc main_v39) := by host_keep hostOps2 main_v39
    _ = (Stages.kh2 (m ((c : Thread nD τ).loc main_arg0)) (m ((c : Thread nD τ).loc main_arg1)) (m ((c : Thread nD τ).loc main_arg3)) (m ((c : Thread nD τ).loc main_arg4)) (m ((c : Thread nD τ).loc main_arg5))) := out_1 m ρ c

theorem at4_main_v1 (c : Dev nD) : W4 m ρ c (Proc.devRef .tc main_v1) = Stages.srcOf (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by host_keep hostOps1 main_v1
    _ = W1 m ρ c (Proc.devRef .tc main_v1) := W2_of_ne m ρ c main_v1 (by decide)
    _ = Stages.srcOf (m ((c : Thread nD τ).loc main_arg1)) := host_main_v1 m ρ c

theorem at4_main_v39 (c : Dev nD) : W4 m ρ c (Proc.devRef .tc main_v39) = (Stages.kh2 (m ((c : Thread nD τ).loc main_arg0)) (m ((c : Thread nD τ).loc main_arg1)) (m ((c : Thread nD τ).loc main_arg3)) (m ((c : Thread nD τ).loc main_arg4)) (m ((c : Thread nD τ).loc main_arg5))) := out_1 m ρ c

theorem at4_main_v3 (c : Dev nD) : W4 m ρ c (Proc.devRef .tc main_v3) = Stages.dstOf (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by host_keep hostOps1 main_v3
    _ = W1 m ρ c (Proc.devRef .tc main_v3) := W2_of_ne m ρ c main_v3 (by decide)
    _ = Stages.dstOf (m ((c : Thread nD τ).loc main_arg1)) := host_main_v3 m ρ c

theorem at4_main_arg3 (c : Dev nD) : W4 m ρ c (Proc.devRef .tc main_arg3) = (m ((c : Thread nD τ).loc main_arg3)) :=
  calc W4 m ρ c (Proc.devRef .tc main_arg3)
    _ = W3 m ρ c (Proc.devRef .tc main_arg3) := W4_of_ne m ρ c main_arg3 (by decide)
    _ = W2 m ρ c (Proc.devRef .tc main_arg3) := by host_keep hostOps1 main_arg3
    _ = W1 m ρ c (Proc.devRef .tc main_arg3) := W2_of_ne m ρ c main_arg3 (by decide)
    _ = W0 m ρ c (Proc.devRef .tc main_arg3) := by host_keep hostOps0 main_arg3
    _ = (m ((c : Thread nD τ).loc main_arg3)) := rfl

theorem at4_main_arg4 (c : Dev nD) : W4 m ρ c (Proc.devRef .tc main_arg4) = (m ((c : Thread nD τ).loc main_arg4)) :=
  calc W4 m ρ c (Proc.devRef .tc main_arg4)
    _ = W3 m ρ c (Proc.devRef .tc main_arg4) := W4_of_ne m ρ c main_arg4 (by decide)
    _ = W2 m ρ c (Proc.devRef .tc main_arg4) := by host_keep hostOps1 main_arg4
    _ = W1 m ρ c (Proc.devRef .tc main_arg4) := W2_of_ne m ρ c main_arg4 (by decide)
    _ = W0 m ρ c (Proc.devRef .tc main_arg4) := by host_keep hostOps0 main_arg4
    _ = (m ((c : Thread nD τ).loc main_arg4)) := rfl

theorem at4_main_arg5 (c : Dev nD) : W4 m ρ c (Proc.devRef .tc main_arg5) = (m ((c : Thread nD τ).loc main_arg5)) :=
  calc W4 m ρ c (Proc.devRef .tc main_arg5)
    _ = W3 m ρ c (Proc.devRef .tc main_arg5) := W4_of_ne m ρ c main_arg5 (by decide)
    _ = W2 m ρ c (Proc.devRef .tc main_arg5) := by host_keep hostOps1 main_arg5
    _ = W1 m ρ c (Proc.devRef .tc main_arg5) := W2_of_ne m ρ c main_arg5 (by decide)
    _ = W0 m ρ c (Proc.devRef .tc main_arg5) := by host_keep hostOps0 main_arg5
    _ = (m ((c : Thread nD τ).loc main_arg5)) := rfl

theorem host_main_v49 (c : Dev nD) : W5 m ρ c (Proc.devRef .tc main_v49) = Stages.agg (F := Ideal) (Stages.kh2 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps2 (W4 m ρ c) (Proc.devRef .tc main_v49) = _
  after_results_simp
  simp only [at4_main_v1 m ρ c, at4_main_v39 m ρ c, at4_main_v3 m ρ c, at4_main_arg3 m ρ c, at4_main_arg4 m ρ c, at4_main_arg5 m ρ c]
  rfl

theorem at5_main_v49 (c : Dev nD) : W5 m ρ c (Proc.devRef .tc main_v49) = Stages.agg (F := Ideal) (Stages.kh2 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := host_main_v49 m ρ c

theorem host_main_v51 (c : Dev nD) : W5 m ρ c (Proc.devRef .tc main_v51) = Stages.w2 (F := Ideal) (m ((c : Thread nD τ).loc main_arg3)) := by
  show StableHlo.after hostOps2 (W4 m ρ c) (Proc.devRef .tc main_v51) = _
  after_results_simp
  simp only [at4_main_v1 m ρ c, at4_main_v39 m ρ c, at4_main_v3 m ρ c, at4_main_arg3 m ρ c, at4_main_arg4 m ρ c, at4_main_arg5 m ρ c]
  rfl

theorem at5_main_v51 (c : Dev nD) : W5 m ρ c (Proc.devRef .tc main_v51) = Stages.w2 (F := Ideal) (m ((c : Thread nD τ).loc main_arg3)) := host_main_v51 m ρ c

theorem host_main_v53 (c : Dev nD) : W5 m ρ c (Proc.devRef .tc main_v53) = Stages.w2 (F := Ideal) (m ((c : Thread nD τ).loc main_arg4)) := by
  show StableHlo.after hostOps2 (W4 m ρ c) (Proc.devRef .tc main_v53) = _
  after_results_simp
  simp only [at4_main_v1 m ρ c, at4_main_v39 m ρ c, at4_main_v3 m ρ c, at4_main_arg3 m ρ c, at4_main_arg4 m ρ c, at4_main_arg5 m ρ c]
  rfl

theorem at5_main_v53 (c : Dev nD) : W5 m ρ c (Proc.devRef .tc main_v53) = Stages.w2 (F := Ideal) (m ((c : Thread nD τ).loc main_arg4)) := host_main_v53 m ρ c

theorem host_main_v56 (c : Dev nD) : W5 m ρ c (Proc.devRef .tc main_v56) = Stages.asRow (F := Ideal) (Stages.b2 (F := Ideal) (m ((c : Thread nD τ).loc main_arg5))) := by
  show StableHlo.after hostOps2 (W4 m ρ c) (Proc.devRef .tc main_v56) = _
  after_results_simp
  simp only [at4_main_v1 m ρ c, at4_main_v39 m ρ c, at4_main_v3 m ρ c, at4_main_arg3 m ρ c, at4_main_arg4 m ρ c, at4_main_arg5 m ρ c]
  rfl

theorem at5_main_v56 (c : Dev nD) : W5 m ρ c (Proc.devRef .tc main_v56) = Stages.asRow (F := Ideal) (Stages.b2 (F := Ideal) (m ((c : Thread nD τ).loc main_arg5))) := host_main_v56 m ρ c

theorem out_2 (c : Dev nD) : W6 m ρ c (Proc.devRef .tc main_v57) = (Stages.kh3 (m ((c : Thread nD τ).loc main_arg0)) (m ((c : Thread nD τ).loc main_arg1)) (m ((c : Thread nD τ).loc main_arg3)) (m ((c : Thread nD τ).loc main_arg4)) (m ((c : Thread nD τ).loc main_arg5))) := by
  refine (W6_arr m ρ c 5).trans ?_
  rw [Reg2.final (V5 m ρ) c]
  have e0 : V5 m ρ c main_v39 = (Stages.kh2 (m ((c : Thread nD τ).loc main_arg0)) (m ((c : Thread nD τ).loc main_arg1)) (m ((c : Thread nD τ).loc main_arg3)) (m ((c : Thread nD τ).loc main_arg4)) (m ((c : Thread nD τ).loc main_arg5))) := at5_main_v39 m ρ c
  have e1 : V5 m ρ c main_v49 = Stages.agg (F := Ideal) (Stages.kh2 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := at5_main_v49 m ρ c
  have e2 : V5 m ρ c main_v51 = Stages.w2 (F := Ideal) (m ((c : Thread nD τ).loc main_arg3)) := at5_main_v51 m ρ c
  have e3 : V5 m ρ c main_v53 = Stages.w2 (F := Ideal) (m ((c : Thread nD τ).loc main_arg4)) := at5_main_v53 m ρ c
  have e4 : V5 m ρ c main_v56 = Stages.asRow (F := Ideal) (Stages.b2 (F := Ideal) (m ((c : Thread nD τ).loc main_arg5))) := at5_main_v56 m ρ c
  rw [e0, e1, e2, e3, e4]
  rfl

theorem at6_main_v57 (c : Dev nD) : W6 m ρ c (Proc.devRef .tc main_v57) = (Stages.kh3 (m ((c : Thread nD τ).loc main_arg0)) (m ((c : Thread nD τ).loc main_arg1)) (m ((c : Thread nD τ).loc main_arg3)) (m ((c : Thread nD τ).loc main_arg4)) (m ((c : Thread nD τ).loc main_arg5))) := out_2 m ρ c

theorem at6_main_v3 (c : Dev nD) : W6 m ρ c (Proc.devRef .tc main_v3) = Stages.dstOf (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by host_keep hostOps2 main_v3
    _ = W3 m ρ c (Proc.devRef .tc main_v3) := W4_of_ne m ρ c main_v3 (by decide)
    _ = W2 m ρ c (Proc.devRef .tc main_v3) := by host_keep hostOps1 main_v3
    _ = W1 m ρ c (Proc.devRef .tc main_v3) := W2_of_ne m ρ c main_v3 (by decide)
    _ = Stages.dstOf (m ((c : Thread nD τ).loc main_arg1)) := host_main_v3 m ρ c

theorem at6_main_arg6 (c : Dev nD) : W6 m ρ c (Proc.devRef .tc main_arg6) = (m ((c : Thread nD τ).loc main_arg6)) :=
  calc W6 m ρ c (Proc.devRef .tc main_arg6)
    _ = W5 m ρ c (Proc.devRef .tc main_arg6) := W6_of_ne m ρ c main_arg6 (by decide)
    _ = W4 m ρ c (Proc.devRef .tc main_arg6) := by host_keep hostOps2 main_arg6
    _ = W3 m ρ c (Proc.devRef .tc main_arg6) := W4_of_ne m ρ c main_arg6 (by decide)
    _ = W2 m ρ c (Proc.devRef .tc main_arg6) := by host_keep hostOps1 main_arg6
    _ = W1 m ρ c (Proc.devRef .tc main_arg6) := W2_of_ne m ρ c main_arg6 (by decide)
    _ = W0 m ρ c (Proc.devRef .tc main_arg6) := by host_keep hostOps0 main_arg6
    _ = (m ((c : Thread nD τ).loc main_arg6)) := rfl

theorem at6_main_arg7 (c : Dev nD) : W6 m ρ c (Proc.devRef .tc main_arg7) = (m ((c : Thread nD τ).loc main_arg7)) :=
  calc W6 m ρ c (Proc.devRef .tc main_arg7)
    _ = W5 m ρ c (Proc.devRef .tc main_arg7) := W6_of_ne m ρ c main_arg7 (by decide)
    _ = W4 m ρ c (Proc.devRef .tc main_arg7) := by host_keep hostOps2 main_arg7
    _ = W3 m ρ c (Proc.devRef .tc main_arg7) := W4_of_ne m ρ c main_arg7 (by decide)
    _ = W2 m ρ c (Proc.devRef .tc main_arg7) := by host_keep hostOps1 main_arg7
    _ = W1 m ρ c (Proc.devRef .tc main_arg7) := W2_of_ne m ρ c main_arg7 (by decide)
    _ = W0 m ρ c (Proc.devRef .tc main_arg7) := by host_keep hostOps0 main_arg7
    _ = (m ((c : Thread nD τ).loc main_arg7)) := rfl

theorem at6_main_arg9 (c : Dev nD) : W6 m ρ c (Proc.devRef .tc main_arg9) = (m ((c : Thread nD τ).loc main_arg9)) :=
  calc W6 m ρ c (Proc.devRef .tc main_arg9)
    _ = W5 m ρ c (Proc.devRef .tc main_arg9) := W6_of_ne m ρ c main_arg9 (by decide)
    _ = W4 m ρ c (Proc.devRef .tc main_arg9) := by host_keep hostOps2 main_arg9
    _ = W3 m ρ c (Proc.devRef .tc main_arg9) := W4_of_ne m ρ c main_arg9 (by decide)
    _ = W2 m ρ c (Proc.devRef .tc main_arg9) := by host_keep hostOps1 main_arg9
    _ = W1 m ρ c (Proc.devRef .tc main_arg9) := W2_of_ne m ρ c main_arg9 (by decide)
    _ = W0 m ρ c (Proc.devRef .tc main_arg9) := by host_keep hostOps0 main_arg9
    _ = (m ((c : Thread nD τ).loc main_arg9)) := rfl

theorem host_main_v64 (c : Dev nD) : W7 m ρ c (Proc.devRef .tc main_v64) = Stages.rowsAt (F := Ideal) (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (Stages.wrap (Stages.srcOf (m ((c : Thread nD τ).loc main_arg1)))) := by
  show StableHlo.after hostOps3 (W6 m ρ c) (Proc.devRef .tc main_v64) = _
  after_results_simp
  simp only [at6_main_v1 m ρ c, at6_main_v57 m ρ c, at6_main_v3 m ρ c, at6_main_arg6 m ρ c, at6_main_arg7 m ρ c, at6_main_arg9 m ρ c]
  rfl

theorem at7_main_v64 (c : Dev nD) : W7 m ρ c (Proc.devRef .tc main_v64) = Stages.rowsAt (F := Ideal) (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (Stages.wrap (Stages.srcOf (m ((c : Thread nD τ).loc main_arg1)))) := host_main_v64 m ρ c

theorem host_main_v71 (c : Dev nD) : W7 m ρ c (Proc.devRef .tc main_v71) = Stages.rowsAt (F := Ideal) (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (Stages.wrap (Stages.dstOf (m ((c : Thread nD τ).loc main_arg1)))) := by
  show StableHlo.after hostOps3 (W6 m ρ c) (Proc.devRef .tc main_v71) = _
  after_results_simp
  simp only [at6_main_v1 m ρ c, at6_main_v57 m ρ c, at6_main_v3 m ρ c, at6_main_arg6 m ρ c, at6_main_arg7 m ρ c, at6_main_arg9 m ρ c]
  rfl

theorem at7_main_v71 (c : Dev nD) : W7 m ρ c (Proc.devRef .tc main_v71) = Stages.rowsAt (F := Ideal) (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (Stages.wrap (Stages.dstOf (m ((c : Thread nD τ).loc main_arg1)))) := host_main_v71 m ρ c

theorem at7_main_arg2 (c : Dev nD) : W7 m ρ c (Proc.devRef .tc main_arg2) = (m ((c : Thread nD τ).loc main_arg2)) :=
  calc W7 m ρ c (Proc.devRef .tc main_arg2)
    _ = W6 m ρ c (Proc.devRef .tc main_arg2) := by host_keep hostOps3 main_arg2
    _ = W5 m ρ c (Proc.devRef .tc main_arg2) := W6_of_ne m ρ c main_arg2 (by decide)
    _ = W4 m ρ c (Proc.devRef .tc main_arg2) := by host_keep hostOps2 main_arg2
    _ = W3 m ρ c (Proc.devRef .tc main_arg2) := W4_of_ne m ρ c main_arg2 (by decide)
    _ = W2 m ρ c (Proc.devRef .tc main_arg2) := by host_keep hostOps1 main_arg2
    _ = W1 m ρ c (Proc.devRef .tc main_arg2) := W2_of_ne m ρ c main_arg2 (by decide)
    _ = W0 m ρ c (Proc.devRef .tc main_arg2) := by host_keep hostOps0 main_arg2
    _ = (m ((c : Thread nD τ).loc main_arg2)) := rfl

theorem host_main_v72 (c : Dev nD) : W7 m ρ c (Proc.devRef .tc main_v72) = Stages.band0 (F := Ideal) (m ((c : Thread nD τ).loc main_arg6)) := by
  show StableHlo.after hostOps3 (W6 m ρ c) (Proc.devRef .tc main_v72) = _
  after_results_simp
  simp only [at6_main_v1 m ρ c, at6_main_v57 m ρ c, at6_main_v3 m ρ c, at6_main_arg6 m ρ c, at6_main_arg7 m ρ c, at6_main_arg9 m ρ c]
  rfl

theorem at7_main_v72 (c : Dev nD) : W7 m ρ c (Proc.devRef .tc main_v72) = Stages.band0 (F := Ideal) (m ((c : Thread nD τ).loc main_arg6)) := host_main_v72 m ρ c

theorem host_main_v73 (c : Dev nD) : W7 m ρ c (Proc.devRef .tc main_v73) = Stages.band1 (F := Ideal) (m ((c : Thread nD τ).loc main_arg6)) := by
  show StableHlo.after hostOps3 (W6 m ρ c) (Proc.devRef .tc main_v73) = _
  after_results_simp
  simp only [at6_main_v1 m ρ c, at6_main_v57 m ρ c, at6_main_v3 m ρ c, at6_main_arg6 m ρ c, at6_main_arg7 m ρ c, at6_main_arg9 m ρ c]
  rfl

theorem at7_main_v73 (c : Dev nD) : W7 m ρ c (Proc.devRef .tc main_v73) = Stages.band1 (F := Ideal) (m ((c : Thread nD τ).loc main_arg6)) := host_main_v73 m ρ c

theorem host_main_v74 (c : Dev nD) : W7 m ρ c (Proc.devRef .tc main_v74) = Stages.band2 (F := Ideal) (m ((c : Thread nD τ).loc main_arg6)) := by
  show StableHlo.after hostOps3 (W6 m ρ c) (Proc.devRef .tc main_v74) = _
  after_results_simp
  simp only [at6_main_v1 m ρ c, at6_main_v57 m ρ c, at6_main_v3 m ρ c, at6_main_arg6 m ρ c, at6_main_arg7 m ρ c, at6_main_arg9 m ρ c]
  rfl

theorem at7_main_v74 (c : Dev nD) : W7 m ρ c (Proc.devRef .tc main_v74) = Stages.band2 (F := Ideal) (m ((c : Thread nD τ).loc main_arg6)) := host_main_v74 m ρ c

theorem host_main_v75 (c : Dev nD) : W7 m ρ c (Proc.devRef .tc main_v75) = Stages.asRow (F := Ideal) (m ((c : Thread nD τ).loc main_arg7)) := by
  show StableHlo.after hostOps3 (W6 m ρ c) (Proc.devRef .tc main_v75) = _
  after_results_simp
  simp only [at6_main_v1 m ρ c, at6_main_v57 m ρ c, at6_main_v3 m ρ c, at6_main_arg6 m ρ c, at6_main_arg7 m ρ c, at6_main_arg9 m ρ c]
  rfl

theorem at7_main_v75 (c : Dev nD) : W7 m ρ c (Proc.devRef .tc main_v75) = Stages.asRow (F := Ideal) (m ((c : Thread nD τ).loc main_arg7)) := host_main_v75 m ρ c

theorem at7_main_arg8 (c : Dev nD) : W7 m ρ c (Proc.devRef .tc main_arg8) = (m ((c : Thread nD τ).loc main_arg8)) :=
  calc W7 m ρ c (Proc.devRef .tc main_arg8)
    _ = W6 m ρ c (Proc.devRef .tc main_arg8) := by host_keep hostOps3 main_arg8
    _ = W5 m ρ c (Proc.devRef .tc main_arg8) := W6_of_ne m ρ c main_arg8 (by decide)
    _ = W4 m ρ c (Proc.devRef .tc main_arg8) := by host_keep hostOps2 main_arg8
    _ = W3 m ρ c (Proc.devRef .tc main_arg8) := W4_of_ne m ρ c main_arg8 (by decide)
    _ = W2 m ρ c (Proc.devRef .tc main_arg8) := by host_keep hostOps1 main_arg8
    _ = W1 m ρ c (Proc.devRef .tc main_arg8) := W2_of_ne m ρ c main_arg8 (by decide)
    _ = W0 m ρ c (Proc.devRef .tc main_arg8) := by host_keep hostOps0 main_arg8
    _ = (m ((c : Thread nD τ).loc main_arg8)) := rfl

theorem host_main_v76 (c : Dev nD) : W7 m ρ c (Proc.devRef .tc main_v76) = Stages.asRow (F := Ideal) (m ((c : Thread nD τ).loc main_arg9)) := by
  show StableHlo.after hostOps3 (W6 m ρ c) (Proc.devRef .tc main_v76) = _
  after_results_simp
  simp only [at6_main_v1 m ρ c, at6_main_v57 m ρ c, at6_main_v3 m ρ c, at6_main_arg6 m ρ c, at6_main_arg7 m ρ c, at6_main_arg9 m ρ c]
  rfl

theorem at7_main_v76 (c : Dev nD) : W7 m ρ c (Proc.devRef .tc main_v76) = Stages.asRow (F := Ideal) (m ((c : Thread nD τ).loc main_arg9)) := host_main_v76 m ρ c

theorem out_3 (c : Dev nD) : W8 m ρ c (Proc.devRef .tc main_v77) = (Stages.msg (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))) := by
  refine (W8_arr m ρ c 9).trans ?_
  rw [Reg3.final (V7 m ρ) c]
  have e0 : V7 m ρ c main_v64 = Stages.rowsAt (F := Ideal) (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (Stages.wrap (Stages.srcOf (m ((c : Thread nD τ).loc main_arg1)))) := at7_main_v64 m ρ c
  have e1 : V7 m ρ c main_v71 = Stages.rowsAt (F := Ideal) (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (Stages.wrap (Stages.dstOf (m ((c : Thread nD τ).loc main_arg1)))) := at7_main_v71 m ρ c
  have e2 : V7 m ρ c main_arg2 = (m ((c : Thread nD τ).loc main_arg2)) := at7_main_arg2 m ρ c
  have e3 : V7 m ρ c main_v72 = Stages.band0 (F := Ideal) (m ((c : Thread nD τ).loc main_arg6)) := at7_main_v72 m ρ c
  have e4 : V7 m ρ c main_v73 = Stages.band1 (F := Ideal) (m ((c : Thread nD τ).loc main_arg6)) := at7_main_v73 m ρ c
  have e5 : V7 m ρ c main_v74 = Stages.band2 (F := Ideal) (m ((c : Thread nD τ).loc main_arg6)) := at7_main_v74 m ρ c
  have e6 : V7 m ρ c main_v75 = Stages.asRow (F := Ideal) (m ((c : Thread nD τ).loc main_arg7)) := at7_main_v75 m ρ c
  have e7 : V7 m ρ c main_arg8 = (m ((c : Thread nD τ).loc main_arg8)) := at7_main_arg8 m ρ c
  have e8 : V7 m ρ c main_v76 = Stages.asRow (F := Ideal) (m ((c : Thread nD τ).loc main_arg9)) := at7_main_v76 m ρ c
  rw [e0, e1, e2, e3, e4, e5, e6, e7, e8]
  rfl

theorem at8_main_v77 (c : Dev nD) : W8 m ρ c (Proc.devRef .tc main_v77) = (Stages.msg (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))) := out_3 m ρ c

theorem at8_main_v3 (c : Dev nD) : W8 m ρ c (Proc.devRef .tc main_v3) = Stages.dstOf (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := by host_keep hostOps3 main_v3
    _ = W5 m ρ c (Proc.devRef .tc main_v3) := W6_of_ne m ρ c main_v3 (by decide)
    _ = W4 m ρ c (Proc.devRef .tc main_v3) := by host_keep hostOps2 main_v3
    _ = W3 m ρ c (Proc.devRef .tc main_v3) := W4_of_ne m ρ c main_v3 (by decide)
    _ = W2 m ρ c (Proc.devRef .tc main_v3) := by host_keep hostOps1 main_v3
    _ = W1 m ρ c (Proc.devRef .tc main_v3) := W2_of_ne m ρ c main_v3 (by decide)
    _ = Stages.dstOf (m ((c : Thread nD τ).loc main_arg1)) := host_main_v3 m ρ c

theorem at8_main_v57 (c : Dev nD) : W8 m ρ c (Proc.devRef .tc main_v57) = (Stages.kh3 (m ((c : Thread nD τ).loc main_arg0)) (m ((c : Thread nD τ).loc main_arg1)) (m ((c : Thread nD τ).loc main_arg3)) (m ((c : Thread nD τ).loc main_arg4)) (m ((c : Thread nD τ).loc main_arg5))) :=
  calc W8 m ρ c (Proc.devRef .tc main_v57)
    _ = W7 m ρ c (Proc.devRef .tc main_v57) := W8_of_ne m ρ c main_v57 (by decide)
    _ = W6 m ρ c (Proc.devRef .tc main_v57) := by host_keep hostOps3 main_v57
    _ = (Stages.kh3 (m ((c : Thread nD τ).loc main_arg0)) (m ((c : Thread nD τ).loc main_arg1)) (m ((c : Thread nD τ).loc main_arg3)) (m ((c : Thread nD τ).loc main_arg4)) (m ((c : Thread nD τ).loc main_arg5))) := out_2 m ρ c

theorem at8_main_arg11 (c : Dev nD) : W8 m ρ c (Proc.devRef .tc main_arg11) = (m ((c : Thread nD τ).loc main_arg11)) :=
  calc W8 m ρ c (Proc.devRef .tc main_arg11)
    _ = W7 m ρ c (Proc.devRef .tc main_arg11) := W8_of_ne m ρ c main_arg11 (by decide)
    _ = W6 m ρ c (Proc.devRef .tc main_arg11) := by host_keep hostOps3 main_arg11
    _ = W5 m ρ c (Proc.devRef .tc main_arg11) := W6_of_ne m ρ c main_arg11 (by decide)
    _ = W4 m ρ c (Proc.devRef .tc main_arg11) := by host_keep hostOps2 main_arg11
    _ = W3 m ρ c (Proc.devRef .tc main_arg11) := W4_of_ne m ρ c main_arg11 (by decide)
    _ = W2 m ρ c (Proc.devRef .tc main_arg11) := by host_keep hostOps1 main_arg11
    _ = W1 m ρ c (Proc.devRef .tc main_arg11) := W2_of_ne m ρ c main_arg11 (by decide)
    _ = W0 m ρ c (Proc.devRef .tc main_arg11) := by host_keep hostOps0 main_arg11
    _ = (m ((c : Thread nD τ).loc main_arg11)) := rfl

theorem host_main_v85 (c : Dev nD) : W9 m ρ c (Proc.devRef .tc main_v85) = Stages.h4 (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (Stages.msg (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))) := by
  show StableHlo.after hostOps4 (W8 m ρ c) (Proc.devRef .tc main_v85) = _
  after_results_simp
  simp only [at8_main_v1 m ρ c, at8_main_v77 m ρ c, at8_main_v3 m ρ c, at8_main_v57 m ρ c, at8_main_arg11 m ρ c]
  rfl

theorem at9_main_v85 (c : Dev nD) : W9 m ρ c (Proc.devRef .tc main_v85) = Stages.h4 (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (Stages.msg (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))) := host_main_v85 m ρ c

theorem at9_main_arg10 (c : Dev nD) : W9 m ρ c (Proc.devRef .tc main_arg10) = (m ((c : Thread nD τ).loc main_arg10)) :=
  calc W9 m ρ c (Proc.devRef .tc main_arg10)
    _ = W8 m ρ c (Proc.devRef .tc main_arg10) := by host_keep hostOps4 main_arg10
    _ = W7 m ρ c (Proc.devRef .tc main_arg10) := W8_of_ne m ρ c main_arg10 (by decide)
    _ = W6 m ρ c (Proc.devRef .tc main_arg10) := by host_keep hostOps3 main_arg10
    _ = W5 m ρ c (Proc.devRef .tc main_arg10) := W6_of_ne m ρ c main_arg10 (by decide)
    _ = W4 m ρ c (Proc.devRef .tc main_arg10) := by host_keep hostOps2 main_arg10
    _ = W3 m ρ c (Proc.devRef .tc main_arg10) := W4_of_ne m ρ c main_arg10 (by decide)
    _ = W2 m ρ c (Proc.devRef .tc main_arg10) := by host_keep hostOps1 main_arg10
    _ = W1 m ρ c (Proc.devRef .tc main_arg10) := W2_of_ne m ρ c main_arg10 (by decide)
    _ = W0 m ρ c (Proc.devRef .tc main_arg10) := by host_keep hostOps0 main_arg10
    _ = (m ((c : Thread nD τ).loc main_arg10)) := rfl

theorem host_main_v86 (c : Dev nD) : W9 m ρ c (Proc.devRef .tc main_v86) = Stages.asRow4 (F := Ideal) (m ((c : Thread nD τ).loc main_arg11)) := by
  show StableHlo.after hostOps4 (W8 m ρ c) (Proc.devRef .tc main_v86) = _
  after_results_simp
  simp only [at8_main_v1 m ρ c, at8_main_v77 m ρ c, at8_main_v3 m ρ c, at8_main_v57 m ρ c, at8_main_arg11 m ρ c]
  rfl

theorem at9_main_v86 (c : Dev nD) : W9 m ρ c (Proc.devRef .tc main_v86) = Stages.asRow4 (F := Ideal) (m ((c : Thread nD τ).loc main_arg11)) := host_main_v86 m ρ c

theorem out_4 (c : Dev nD) : W10 m ρ c (Proc.devRef .tc main_v87) = Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 3).trans ?_
  rw [Reg4.final (V9 m ρ) c]
  have e0 : V9 m ρ c main_v85 = Stages.h4 (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (Stages.msg (Stages.kh3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))) := at9_main_v85 m ρ c
  have e1 : V9 m ρ c main_arg10 = (m ((c : Thread nD τ).loc main_arg10)) := at9_main_arg10 m ρ c
  have e2 : V9 m ρ c main_v86 = Stages.asRow4 (F := Ideal) (m ((c : Thread nD τ).loc main_arg11)) := at9_main_v86 m ρ c
  rw [e0, e1, e2]
  rfl

/-- The result buffer at the last boundary is the kernel's logits as one term of the arguments at launch. -/
theorem result (c : Dev nD) : W10 m ρ c (Proc.devRef .tc main_v87) = Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := out_4 m ρ c

end Cert.KernelIdeal.Chain

end
-- ==== Proof.RefStages.lean ====
/-
  The reference program's result as a composition of named stages.

  The reference gathers rows of the node features along the source indices, adds them up per destination node,
  applies a convolution layer (two products, a bias, a maximum with zero) three times, then joins for every edge
  the rows of its two end nodes and its own attributes, applies the two-layer edge network, adds every edge's message
  to both of its end nodes, and classifies. Each stage is named here exactly as the program spells it, so that the
  program's composed result IS this composition.
-/
import proofs.«141989_j910533067387_1_alg».proof.Proof.Gen.ReferenceIdeal.Run

set_option maxRecDepth 16384

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- The edges' source node numbers: row 0 of the edge table. -/
def srcOf (a1 : IVec S2x625000 32) : IVec S625000 32 :=
  shapeCast _ (extractStridedSlice S1x625000 ![0, 0] a1 slices_S2x625000_S1x625000_0_0) shapeCasts_S1x625000_S625000
/-- The edges' destination node numbers: row 1 of the edge table. -/
def dstOf (a1 : IVec S2x625000 32) : IVec S625000 32 :=
  shapeCast _ (extractStridedSlice S1x625000 ![1, 0] a1 slices_S2x625000_S1x625000_1_0) shapeCasts_S1x625000_S625000
/-- Node numbers as gather start indices: a negative number counts from the end. -/
def wrap (v : IVec S625000 32) : IVec S625000x1 32 :=
  broadcastInDim S625000x1 ![0] bcast_S625000_S625000x1_0
    (select (cmpi .slt v (broadcastInDim S625000 ![] bcast_S_S625000 (constantI S_ 32 0#32)))
      (addi v (broadcastInDim S625000 ![] bcast_S_S625000 (constantI S_ 32 25000#32))) v)
/-- The rows of `h` at the given start indices. -/
def rowsAt (h : FVec F S25000x128 .f32) (idx : IVec S625000x1 32) : FVec F S625000x128 .f32 :=
  Host.gather gather_S25000x128_S625000x1_S625000x128_1_0_n_n_0_1_1128 h idx
/-- The zero array the scatter-adds start from. -/
def zeros : FVec F S25000x128 .f32 := broadcastInDim S25000x128 ![] bcast_S_S25000x128 (constant S_ .f32 0x00000000#32)
/-- Per-node sums of edge rows, each edge's row added at the node numbered `v`. -/
def sumAt (v : IVec S625000 32) (u : FVec F S625000x128 .f32) : FVec F S25000x128 .f32 :=
  Host.scatterAdd scatter_S25000x128_S625000x1_S625000x128_1_0_0_1 zeros (broadcastInDim S625000x1 ![0] bcast_S625000_S625000x1_0 v) u
/-- A convolution layer as the reference spells it. -/
def convRef (h ag : FVec F S25000x128 .f32) (ws wn : FVec F S128x128 .f32) (b : FVec F S128 .f32) : FVec F S25000x128 .f32 :=
  maximumf (addf (addf (Host.dotGeneral dot_S25000x128_S128x128_S25000x128_1_0_0_1_n_n none h ws)
      (Host.dotGeneral dot_S25000x128_S128x128_S25000x128_1_0_0_1_n_n none ag wn))
    (broadcastInDim S25000x128 ![0, 1] bcast_S1x128_S25000x128_0_1 (broadcastInDim S1x128 ![1] bcast_S128_S1x128_1 b)))
    (broadcastInDim S25000x128 ![] bcast_S_S25000x128 (constant S_ .f32 0x00000000#32))
/-- The edge network as the reference spells it: the joined row times the stacked matrix, bias, maximum with zero,
    second product, bias. -/
def mlpRef (hs hd : FVec F S625000x128 .f32) (ea : FVec F S625000x16 .f32) (w1 : FVec F S272x128 .f32) (b1 : FVec F S128 .f32)
    (w2 : FVec F S128x128 .f32) (b2 : FVec F S128 .f32) : FVec F S625000x128 .f32 :=
  addf (Host.dotGeneral dot_S625000x128_S128x128_S625000x128_1_0_0_1_n_n none
      (maximumf (addf (Host.dotGeneral dot_S625000x272_S272x128_S625000x128_1_0_0_1_n_n none
            (concatenate S625000x272 1 [⟨S625000x128, hs⟩, ⟨S625000x128, hd⟩, ⟨S625000x16, ea⟩] concatenates_S625000x128_S625000x128_S625000x16_S625000x272_d1) w1)
          (broadcastInDim S625000x128 ![0, 1] bcast_S1x128_S625000x128_0_1 (broadcastInDim S1x128 ![1] bcast_S128_S1x128_1 b1)))
        (broadcastInDim S625000x128 ![] bcast_S_S625000x128 (constant S_ .f32 0x00000000#32))) w2)
    (broadcastInDim S625000x128 ![0, 1] bcast_S1x128_S625000x128_0_1 (broadcastInDim S1x128 ![1] bcast_S128_S1x128_1 b2))
/-- The classifier as the reference spells it. -/
def linRef (h : FVec F S25000x128 .f32) (w : FVec F S128x4 .f32) (b : FVec F S4 .f32) : FVec F S25000x4 .f32 :=
  addf (Host.dotGeneral dot_S25000x128_S128x4_S25000x4_1_0_0_1_n_n none h w)
    (broadcastInDim S25000x4 ![0, 1] bcast_S1x4_S25000x4_0_1 (broadcastInDim S1x4 ![1] bcast_S4_S1x4_1 b))

/-- Layer `l`'s self matrix, neighbour matrix and bias, cut out of the stacked parameters. -/
def w0 (a : FVec F S3x128x128 .f32) : FVec F S128x128 .f32 :=
  shapeCast _ (extractStridedSlice S1x128x128 ![0, 0, 0] a slices_S3x128x128_S1x128x128_0_0_0) shapeCasts_S1x128x128_S128x128
def w1 (a : FVec F S3x128x128 .f32) : FVec F S128x128 .f32 :=
  shapeCast _ (extractStridedSlice S1x128x128 ![1, 0, 0] a slices_S3x128x128_S1x128x128_1_0_0) shapeCasts_S1x128x128_S128x128
def w2 (a : FVec F S3x128x128 .f32) : FVec F S128x128 .f32 :=
  shapeCast _ (extractStridedSlice S1x128x128 ![2, 0, 0] a slices_S3x128x128_S1x128x128_2_0_0) shapeCasts_S1x128x128_S128x128
def b0 (a : FVec F S3x128 .f32) : FVec F S128 .f32 :=
  shapeCast _ (extractStridedSlice S1x128 ![0, 0] a slices_S3x128_S1x128_0_0) shapeCasts_S1x128_S128
def b1 (a : FVec F S3x128 .f32) : FVec F S128 .f32 :=
  shapeCast _ (extractStridedSlice S1x128 ![1, 0] a slices_S3x128_S1x128_1_0) shapeCasts_S1x128_S128
def b2 (a : FVec F S3x128 .f32) : FVec F S128 .f32 :=
  shapeCast _ (extractStridedSlice S1x128 ![2, 0] a slices_S3x128_S1x128_2_0) shapeCasts_S1x128_S128

/-- The neighbour sums of `h`: every edge's source row added at its destination node. -/
def agg (h : FVec F S25000x128 .f32) (a1 : IVec S2x625000 32) : FVec F S25000x128 .f32 :=
  sumAt (dstOf a1) (rowsAt h (wrap (srcOf a1)))

/-- The node features after the three convolution layers. -/
def h1 (a0 : FVec F S25000x128 .f32) (a1 : IVec S2x625000 32) (a3 a4 : FVec F S3x128x128 .f32) (a5 : FVec F S3x128 .f32) :=
  convRef a0 (agg a0 a1) (w0 a3) (w0 a4) (b0 a5)
def h2 (a0 : FVec F S25000x128 .f32) (a1 : IVec S2x625000 32) (a3 a4 : FVec F S3x128x128 .f32) (a5 : FVec F S3x128 .f32) :=
  convRef (h1 a0 a1 a3 a4 a5) (agg (h1 a0 a1 a3 a4 a5) a1) (w1 a3) (w1 a4) (b1 a5)
def h3 (a0 : FVec F S25000x128 .f32) (a1 : IVec S2x625000 32) (a3 a4 : FVec F S3x128x128 .f32) (a5 : FVec F S3x128 .f32) :=
  convRef (h2 a0 a1 a3 a4 a5) (agg (h2 a0 a1 a3 a4 a5) a1) (w2 a3) (w2 a4) (b2 a5)

/-- From the convolved features to the logits: the edge messages, added at both end nodes, then the classifier. -/
def tail (h : FVec F S25000x128 .f32) (a1 : IVec S2x625000 32) (a2 : FVec F S625000x16 .f32) (a6 : FVec F S272x128 .f32)
    (a7 : FVec F S128 .f32) (a8 : FVec F S128x128 .f32) (a9 : FVec F S128 .f32) (a10 : FVec F S128x4 .f32) (a11 : FVec F S4 .f32) :
    FVec F S25000x4 .f32 :=
  linRef (addf h (addf
      (sumAt (srcOf a1) (mlpRef (rowsAt h (wrap (srcOf a1))) (rowsAt h (wrap (dstOf a1))) a2 a6 a7 a8 a9))
      (sumAt (dstOf a1) (mlpRef (rowsAt h (wrap (srcOf a1))) (rowsAt h (wrap (dstOf a1))) a2 a6 a7 a8 a9)))) a10 a11

/-- The reference's composed result is the composition of the named stages. -/
theorem res_eq (m : (ℓ : Loc nD τ sig) → Buf (Elt F) ℓ) (c : Dev nD) :
    Cert.ReferenceIdeal.Value.res_main_v108 m c
      = tail (h3 (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5)))
          (m ((c.tc : Thread nD τ).loc main_arg1)) (m ((c.tc : Thread nD τ).loc main_arg2)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) := rfl

end Cert.ReferenceIdeal.Stages

end
-- ==== Proof.RefLayers.lean ====
/-
  The reference's three dense stages read entry by entry, over the extended reals.

  Each stage is a composition of whole-array operations: matrix products, sums, a maximum with the zero array, a bias
  vector copied down the rows. Read at an output index (r, c), a sum or a maximum is the sum or maximum of the entries
  at (r, c); a product is the sum over the contracted coordinate k of left (r, k) times right (k, c); a bias vector
  made a one-row matrix and then copied down the rows is the vector's entry c; the zero scalar copied everywhere is 0.
  For the edge network the left factor of the first product is the row-wise join of three arrays, of widths 128, 128
  and 16: its entry (r, k) is the first array's (r, k) for k < 128, the second's (r, k - 128) for 128 ≤ k < 256 and
  the third's (r, k - 256) from there on, so the sum over the 272 joined coordinates is the sum of three sums, one
  per array, each against the matching band of rows of the stacked matrix.
-/
import proofs.«141989_j910533067387_1_alg».proof.Proof.RefStages
import proofs.«141989_j910533067387_1_alg».proof.Proof.Rows
import proofs.«141989_j910533067387_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Layers

open Cert.ReferenceIdeal Cert.ReferenceIdeal.Gen Idealize.ShloMosaic Idealize.ShloMosaic.ValueIdx
open Cert.ReferenceIdeal.Stages

/-- The zero scalar copied to every entry of an array reads 0 everywhere. -/
theorem zero_apply {T : Shape} (hT : S_.BroadcastsInDim T (![] : Fin 0 → Fin T.rank)) (i : T.Idx) :
    broadcastInDim T ![] hT (constant (F := Ideal) S_ .f32 0x00000000#32) i = 0 := by
  refine (broadcastInDim_apply _ hT _ i ix0 (fun a => a.elim0)).trans ?_
  rw [constant_apply]
  exact Ideal.ofBits_zero_f32

/-- A vector of 128 entries made a one-row matrix and copied down 25000 rows reads, at (r, c), the vector's entry c. -/
theorem bias_apply_25000x128 (b : FVec Ideal S128 .f32) (i : S25000x128.Idx) :
    broadcastInDim S25000x128 ![0, 1] bcast_S1x128_S25000x128_0_1 (broadcastInDim S1x128 ![1] bcast_S128_S1x128_1 b) i
      = b (ix1 (i 1)) := by
  refine (broadcastInDim_apply _ _ _ i (ix2 (0 : Fin 1) (i 1)) (fun a => match a with | ⟨0, _⟩ => rfl | ⟨1, _⟩ => rfl)).trans ?_
  exact broadcastInDim_apply _ _ _ _ (ix1 (i 1)) (fun a => match a with | ⟨0, _⟩ => rfl)

/-- The same over 625000 rows. -/
theorem bias_apply_625000x128 (b : FVec Ideal S128 .f32) (i : S625000x128.Idx) :
    broadcastInDim S625000x128 ![0, 1] bcast_S1x128_S625000x128_0_1 (broadcastInDim S1x128 ![1] bcast_S128_S1x128_1 b) i
      = b (ix1 (i 1)) := by
  refine (broadcastInDim_apply _ _ _ i (ix2 (0 : Fin 1) (i 1)) (fun a => match a with | ⟨0, _⟩ => rfl | ⟨1, _⟩ => rfl)).trans ?_
  exact broadcastInDim_apply _ _ _ _ (ix1 (i 1)) (fun a => match a with | ⟨0, _⟩ => rfl)

/-- A vector of 4 entries made a one-row matrix and copied down 25000 rows reads, at (r, c), the vector's entry c. -/
theorem bias_apply_25000x4 (b : FVec Ideal S4 .f32) (i : S25000x4.Idx) :
    broadcastInDim S25000x4 ![0, 1] bcast_S1x4_S25000x4_0_1 (broadcastInDim S1x4 ![1] bcast_S4_S1x4_1 b) i
      = b (ix1 (i 1)) := by
  refine (broadcastInDim_apply _ _ _ i (ix2 (0 : Fin 1) (i 1)) (fun a => match a with | ⟨0, _⟩ => rfl | ⟨1, _⟩ => rfl)).trans ?_
  exact broadcastInDim_apply _ _ _ _ (ix1 (i 1)) (fun a => match a with | ⟨0, _⟩ => rfl)

/-- A convolution layer of the reference is the layer entry by entry. -/
theorem convRef_eq (h ag : FVec Ideal S25000x128 .f32) (ws wn : FVec Ideal S128x128 .f32) (b : FVec Ideal S128 .f32) :
    convRef (F := Ideal) h ag ws wn b = Cert.Gnn.convG h ag ws wn (fun q => b (ix1 q)) := by
  funext i
  unfold convRef
  simp only [Host.dotGeneral]
  rw [maximumf_apply, addf_apply, addf_apply,
    PlainDot.dotGeneral_plain dot_S25000x128_S128x128_S25000x128_1_0_0_1_n_n rfl rfl rfl rfl rfl rfl,
    PlainDot.dotGeneral_plain dot_S25000x128_S128x128_S25000x128_1_0_0_1_n_n rfl rfl rfl rfl rfl rfl,
    bias_apply_25000x128, zero_apply]
  rfl

/-- The classifier of the reference is the classifier entry by entry. -/
theorem linRef_eq (h : FVec Ideal S25000x128 .f32) (w : FVec Ideal S128x4 .f32) (b : FVec Ideal S4 .f32) :
    linRef (F := Ideal) h w b = Cert.Gnn.linG h w (fun q => b (ix1 q)) := by
  funext i
  unfold linRef
  simp only [Host.dotGeneral]
  rw [addf_apply,
    PlainDot.dotGeneral_plain dot_S25000x128_S128x4_S25000x4_1_0_0_1_n_n rfl rfl rfl rfl rfl rfl,
    bias_apply_25000x4]
  rfl

/-- The joined row at a coordinate below 128 is the first array's entry there. -/
theorem join_apply_fst (hs hd : FVec Ideal S625000x128 .f32) (ea : FVec Ideal S625000x16 .f32)
    (r : Fin 625000) (k : Fin 128) (hk : k.val < 272) :
    concatenate S625000x272 1 [⟨S625000x128, hs⟩, ⟨S625000x128, hd⟩, ⟨S625000x16, ea⟩]
        concatenates_S625000x128_S625000x128_S625000x16_S625000x272_d1 (ix2 r (⟨k.val, hk⟩ : Fin 272))
      = hs (ix2 r k) :=
  concatenate_apply_piece (1 : Fin S625000x272.rank) _ _ _ 0 (by show 0 < 3; omega) S625000x128 hs rfl rfl 0 rfl (ix2 r k)
    (fun b => match b with
      | ⟨0, _⟩ => fun _ => rfl
      | ⟨1, _⟩ => fun h => (h (Fin.ext rfl)).elim)
    (by show 0 + k.val = k.val; omega)

/-- The joined row at a coordinate 128 + k, k below 128, is the second array's entry k. -/
theorem join_apply_snd (hs hd : FVec Ideal S625000x128 .f32) (ea : FVec Ideal S625000x16 .f32)
    (r : Fin 625000) (k : Fin 128) (hk : 128 + k.val < 272) :
    concatenate S625000x272 1 [⟨S625000x128, hs⟩, ⟨S625000x128, hd⟩, ⟨S625000x16, ea⟩]
        concatenates_S625000x128_S625000x128_S625000x16_S625000x272_d1 (ix2 r (⟨128 + k.val, hk⟩ : Fin 272))
      = hd (ix2 r k) :=
  concatenate_apply_piece (1 : Fin S625000x272.rank) _ _ _ 1 (by show 1 < 3; omega) S625000x128 hd rfl rfl 128 rfl (ix2 r k)
    (fun b => match b with
      | ⟨0, _⟩ => fun _ => rfl
      | ⟨1, _⟩ => fun h => (h (Fin.ext rfl)).elim)
    (by show 128 + k.val = 128 + k.val; rfl)

/-- The joined row at a coordinate 256 + k, k below 16, is the third array's entry k. -/
theorem join_apply_trd (hs hd : FVec Ideal S625000x128 .f32) (ea : FVec Ideal S625000x16 .f32)
    (r : Fin 625000) (k : Fin 16) (hk : 256 + k.val < 272) :
    concatenate S625000x272 1 [⟨S625000x128, hs⟩, ⟨S625000x128, hd⟩, ⟨S625000x16, ea⟩]
        concatenates_S625000x128_S625000x128_S625000x16_S625000x272_d1 (ix2 r (⟨256 + k.val, hk⟩ : Fin 272))
      = ea (ix2 r k) :=
  concatenate_apply_piece (1 : Fin S625000x272.rank) _ _ _ 2 (by show 2 < 3; omega) S625000x16 ea rfl rfl 256 rfl (ix2 r k)
    (fun b => match b with
      | ⟨0, _⟩ => fun _ => rfl
      | ⟨1, _⟩ => fun h => (h (Fin.ext rfl)).elim)
    (by show 256 + k.val = 256 + k.val; rfl)

/-- The edge network's hidden array — the joined rows times the stacked matrix, plus the bias, maximum with zero —
    entry by entry: the sum over the 272 joined coordinates cut at 128 and 256. -/
theorem hid_apply (hs hd : FVec Ideal S625000x128 .f32) (ea : FVec Ideal S625000x16 .f32) (w1 : FVec Ideal S272x128 .f32)
    (b1 : FVec Ideal S128 .f32) (i : S625000x128.Idx) :
    maximumf (addf (FloatOps.dotGeneral dot_S625000x272_S272x128_S625000x128_1_0_0_1_n_n none .single
            (concatenate S625000x272 1 [⟨S625000x128, hs⟩, ⟨S625000x128, hd⟩, ⟨S625000x16, ea⟩] concatenates_S625000x128_S625000x128_S625000x16_S625000x272_d1) w1)
          (broadcastInDim S625000x128 ![0, 1] bcast_S1x128_S625000x128_0_1 (broadcastInDim S1x128 ![1] bcast_S128_S1x128_1 b1)))
        (broadcastInDim S625000x128 ![] bcast_S_S625000x128 (constant (F := Ideal) S_ .f32 0x00000000#32)) i
      = Cert.Gnn.hidRow (fun k => hs (ix2 (i 0) k)) (fun k => hd (ix2 (i 0) k)) (fun k => ea (ix2 (i 0) k))
          (fun i => w1 (ix2 (⟨(i 0).val, by have := idx2_lt0 i; omega⟩ : Fin 272) (i 1)))
          (fun i => w1 (ix2 (⟨128 + (i 0).val, by have := idx2_lt0 i; omega⟩ : Fin 272) (i 1)))
          (fun i => w1 (ix2 (⟨256 + (i 0).val, by have := idx2_lt0 i; omega⟩ : Fin 272) (i 1)))
          (fun q => b1 (ix1 q)) (i 1) := by
  rw [maximumf_apply, addf_apply,
    PlainDot.dotGeneral_plain dot_S625000x272_S272x128_S625000x128_1_0_0_1_n_n rfl rfl rfl rfl rfl rfl,
    bias_apply_625000x128, zero_apply, Cert.Gnn.sum_272]
  unfold Cert.Gnn.hidRow
  refine congrArg (max · 0) (congrArg (· + _) ?_)
  refine congrArg₂ (· + ·) (congrArg₂ (· + ·) ?_ ?_) ?_
  · exact Finset.sum_congr rfl fun k _ => congrArg (· * _) (join_apply_fst hs hd ea (i 0) k _)
  · exact Finset.sum_congr rfl fun k _ => congrArg (· * _) (join_apply_snd hs hd ea (i 0) k _)
  · exact Finset.sum_congr rfl fun k _ => congrArg (· * _) (join_apply_trd hs hd ea (i 0) k _)

/-- The edge network of the reference is the edge network entry by entry. -/
theorem mlpRef_eq (hs hd : FVec Ideal S625000x128 .f32) (ea : FVec Ideal S625000x16 .f32) (w1 : FVec Ideal S272x128 .f32)
    (b1 : FVec Ideal S128 .f32) (w2 : FVec Ideal S128x128 .f32) (b2 : FVec Ideal S128 .f32) :
    mlpRef (F := Ideal) hs hd ea w1 b1 w2 b2 = Cert.Gnn.mlpG hs hd ea
      (fun i => w1 (ix2 (⟨(i 0).val, by have := idx2_lt0 i; omega⟩ : Fin 272) (i 1)))
      (fun i => w1 (ix2 (⟨128 + (i 0).val, by have := idx2_lt0 i; omega⟩ : Fin 272) (i 1)))
      (fun i => w1 (ix2 (⟨256 + (i 0).val, by have := idx2_lt0 i; omega⟩ : Fin 272) (i 1)))
      (fun q => b1 (ix1 q)) w2 (fun q => b2 (ix1 q)) := by
  funext i
  unfold mlpRef
  simp only [Host.dotGeneral]
  rw [addf_apply,
    PlainDot.dotGeneral_plain dot_S625000x128_S128x128_S625000x128_1_0_0_1_n_n rfl rfl rfl rfl rfl rfl,
    bias_apply_625000x128]
  unfold Cert.Gnn.mlpG Cert.Gnn.mlpRow
  refine congrArg (· + _) (Finset.sum_congr rfl fun q _ => congrArg (· * _) ?_)
  exact hid_apply hs hd ea w1 b1 (ix2 (i 0) q)

end Cert.ReferenceIdeal.Layers

end
-- ==== Proof.Bridge.lean ====
/-
  The kernel's result, as composed from its host stages and its dense stages, is the reference's result.

  Both programs cut the edge table, gather rows, add rows up per node and cut the stacked parameters with the same
  operations on the same shapes, so those stages are the same functions. The kernel's dense stages take a bias as a
  one-row matrix, whose row is the bias itself (the entry at row-major position q of a vector is the entry (0, q) of
  its one-row matrix), and take the edge network's first matrix as its three row bands, which are the stacked
  matrix's rows 0–127, 128–255 and 256–271. With these, each convolution layer, the edge messages and the classifier
  of the kernel are the reference's stages read entry by entry, and the two results agree by congruence, layer by layer.
-/
import proofs.«141989_j910533067387_1_alg».proof.Proof.KerStages
import proofs.«141989_j910533067387_1_alg».proof.Proof.RefStages
import proofs.«141989_j910533067387_1_alg».proof.Proof.RefLayers
import proofs.«141989_j910533067387_1_alg».proof.Proof.Rows
import Idealize.ShloMosaic.Lib.ValueIdx
import Idealize.ShloMosaic.Lib.Pipeline.Value

set_option maxRecDepth 16384

noncomputable section

namespace Cert.Bridge

open Cert.ReferenceIdeal Idealize.ShloMosaic Idealize.ShloMosaic.ValueIdx

/-! ## The host stages of the two programs are the same functions -/

theorem srcOf_eq (a1 : IVec S2x625000 32) : Cert.KernelIdeal.Stages.srcOf a1 = Cert.ReferenceIdeal.Stages.srcOf a1 := rfl
theorem dstOf_eq (a1 : IVec S2x625000 32) : Cert.KernelIdeal.Stages.dstOf a1 = Cert.ReferenceIdeal.Stages.dstOf a1 := rfl
theorem wrap_eq (v : IVec S625000 32) : Cert.KernelIdeal.Stages.wrap v = Cert.ReferenceIdeal.Stages.wrap v := rfl
theorem rowsAt_eq (h : FVec Ideal S25000x128 .f32) (idx : IVec S625000x1 32) :
    Cert.KernelIdeal.Stages.rowsAt h idx = Cert.ReferenceIdeal.Stages.rowsAt h idx := rfl
theorem sumAt_eq (v : IVec S625000 32) (u : FVec Ideal S625000x128 .f32) :
    Cert.KernelIdeal.Stages.sumAt v u = Cert.ReferenceIdeal.Stages.sumAt v u := rfl
theorem agg_eq (h : FVec Ideal S25000x128 .f32) (a1 : IVec S2x625000 32) :
    Cert.KernelIdeal.Stages.agg h a1 = Cert.ReferenceIdeal.Stages.agg h a1 := rfl
theorem w0_eq (a : FVec Ideal S3x128x128 .f32) : Cert.KernelIdeal.Stages.w0 a = Cert.ReferenceIdeal.Stages.w0 a := rfl
theorem w1_eq (a : FVec Ideal S3x128x128 .f32) : Cert.KernelIdeal.Stages.w1 a = Cert.ReferenceIdeal.Stages.w1 a := rfl
theorem w2_eq (a : FVec Ideal S3x128x128 .f32) : Cert.KernelIdeal.Stages.w2 a = Cert.ReferenceIdeal.Stages.w2 a := rfl
theorem b0_eq (a : FVec Ideal S3x128 .f32) : Cert.KernelIdeal.Stages.b0 a = Cert.ReferenceIdeal.Stages.b0 a := rfl
theorem b1_eq (a : FVec Ideal S3x128 .f32) : Cert.KernelIdeal.Stages.b1 a = Cert.ReferenceIdeal.Stages.b1 a := rfl
theorem b2_eq (a : FVec Ideal S3x128 .f32) : Cert.KernelIdeal.Stages.b2 a = Cert.ReferenceIdeal.Stages.b2 a := rfl

/-! ## A bias as a one-row matrix, and the bands of the stacked matrix -/

/-- The row of a 128-vector made a one-row matrix is the vector. -/
theorem theRow_asRow (b : FVec Ideal S128 .f32) :
    Cert.KernelIdeal.Stages.theRow (Cert.KernelIdeal.Stages.asRow b) = fun q => b (ix1 q) := by
  funext q
  unfold Cert.KernelIdeal.Stages.theRow Cert.KernelIdeal.Stages.asRow
  refine shapeCast_apply _ _ _ (ix1 q) ?_
  rw [Shape.rowMajor_val_one, Shape.rowMajor_val_two]
  show q.val = 0 * 128 + q.val
  omega

/-- The row of a 4-vector made a one-row matrix is the vector. -/
theorem theRow_asRow4 (b : FVec Ideal S4 .f32) :
    Cert.KernelIdeal.Stages.theRow (Cert.KernelIdeal.Stages.asRow4 b) = fun q => b (ix1 q) := by
  funext q
  unfold Cert.KernelIdeal.Stages.theRow Cert.KernelIdeal.Stages.asRow4
  refine shapeCast_apply _ _ _ (ix1 q) ?_
  rw [Shape.rowMajor_val_one, Shape.rowMajor_val_two]
  show q.val = 0 * 4 + q.val
  omega

/-- The first band of the stacked matrix is its rows 0–127. -/
theorem band0_eq (a : FVec Ideal S272x128 .f32) :
    Cert.KernelIdeal.Stages.band0 a
      = fun i => a (ix2 (⟨(i 0).val, by have := idx2_lt0 i; omega⟩ : Fin 272) (i 1)) := by
  funext i
  unfold Cert.KernelIdeal.Stages.band0
  exact extractStridedSlice_apply _ _ _ i _ (fun c => match c with
    | ⟨0, _⟩ => by show (i 0).val = 0 + (i 0).val; omega
    | ⟨1, _⟩ => by show (i 1).val = 0 + (i 1).val; omega)

/-- The second band is its rows 128–255. -/
theorem band1_eq (a : FVec Ideal S272x128 .f32) :
    Cert.KernelIdeal.Stages.band1 a
      = fun i => a (ix2 (⟨128 + (i 0).val, by have := idx2_lt0 i; omega⟩ : Fin 272) (i 1)) := by
  funext i
  unfold Cert.KernelIdeal.Stages.band1
  exact extractStridedSlice_apply _ _ _ i _ (fun c => match c with
    | ⟨0, _⟩ => by show 128 + (i 0).val = 128 + (i 0).val; rfl
    | ⟨1, _⟩ => by show (i 1).val = 0 + (i 1).val; omega)

/-- The third band is its rows 256–271. -/
theorem band2_eq (a : FVec Ideal S272x128 .f32) :
    Cert.KernelIdeal.Stages.band2 a
      = fun i => a (ix2 (⟨256 + (i 0).val, by have := idx2_lt0 i; omega⟩ : Fin 272) (i 1)) := by
  funext i
  unfold Cert.KernelIdeal.Stages.band2
  exact extractStridedSlice_apply _ _ _ i _ (fun c => match c with
    | ⟨0, _⟩ => by show 256 + (i 0).val = 256 + (i 0).val; rfl
    | ⟨1, _⟩ => by show (i 1).val = 0 + (i 1).val; omega)

/-! ## The convolution layers -/

/-- The kernel's features after the first layer are the reference's. -/
theorem kh1_eq (a0 : FVec Ideal S25000x128 .f32) (a1 : IVec S2x625000 32) (a3 a4 : FVec Ideal S3x128x128 .f32)
    (a5 : FVec Ideal S3x128 .f32) :
    Cert.KernelIdeal.Stages.kh1 a0 a1 a3 a4 a5 = Cert.ReferenceIdeal.Stages.h1 a0 a1 a3 a4 a5 := by
  unfold Cert.KernelIdeal.Stages.kh1 Cert.ReferenceIdeal.Stages.h1
  rw [Cert.ReferenceIdeal.Layers.convRef_eq, theRow_asRow, agg_eq, w0_eq, w0_eq, b0_eq]

/-- After the second layer. -/
theorem kh2_eq (a0 : FVec Ideal S25000x128 .f32) (a1 : IVec S2x625000 32) (a3 a4 : FVec Ideal S3x128x128 .f32)
    (a5 : FVec Ideal S3x128 .f32) :
    Cert.KernelIdeal.Stages.kh2 a0 a1 a3 a4 a5 = Cert.ReferenceIdeal.Stages.h2 a0 a1 a3 a4 a5 := by
  unfold Cert.KernelIdeal.Stages.kh2 Cert.ReferenceIdeal.Stages.h2
  rw [Cert.ReferenceIdeal.Layers.convRef_eq, theRow_asRow, kh1_eq, agg_eq, w1_eq, w1_eq, b1_eq]

/-- After the third layer. -/
theorem kh3_eq (a0 : FVec Ideal S25000x128 .f32) (a1 : IVec S2x625000 32) (a3 a4 : FVec Ideal S3x128x128 .f32)
    (a5 : FVec Ideal S3x128 .f32) :
    Cert.KernelIdeal.Stages.kh3 a0 a1 a3 a4 a5 = Cert.ReferenceIdeal.Stages.h3 a0 a1 a3 a4 a5 := by
  unfold Cert.KernelIdeal.Stages.kh3 Cert.ReferenceIdeal.Stages.h3
  rw [Cert.ReferenceIdeal.Layers.convRef_eq, theRow_asRow, kh2_eq, agg_eq, w2_eq, w2_eq, b2_eq]

/-! ## The edge messages and the result -/

/-- The kernel's edge messages from features `h` are the reference's edge network on the gathered rows. -/
theorem msg_eq (h : FVec Ideal S25000x128 .f32) (a1 : IVec S2x625000 32) (a2 : FVec Ideal S625000x16 .f32)
    (a6 : FVec Ideal S272x128 .f32) (a7 : FVec Ideal S128 .f32) (a8 : FVec Ideal S128x128 .f32) (a9 : FVec Ideal S128 .f32) :
    Cert.KernelIdeal.Stages.msg h a1 a2 a6 a7 a8 a9
      = Cert.ReferenceIdeal.Stages.mlpRef (F := Ideal)
          (Cert.ReferenceIdeal.Stages.rowsAt h (Cert.ReferenceIdeal.Stages.wrap (Cert.ReferenceIdeal.Stages.srcOf a1)))
          (Cert.ReferenceIdeal.Stages.rowsAt h (Cert.ReferenceIdeal.Stages.wrap (Cert.ReferenceIdeal.Stages.dstOf a1)))
          a2 a6 a7 a8 a9 := by
  unfold Cert.KernelIdeal.Stages.msg
  rw [Cert.ReferenceIdeal.Layers.mlpRef_eq, band0_eq, band1_eq, band2_eq, theRow_asRow, theRow_asRow,
    rowsAt_eq, rowsAt_eq, wrap_eq, wrap_eq, srcOf_eq, dstOf_eq]

/-- The kernel's result is the reference's. -/
theorem out_eq (a0 : FVec Ideal S25000x128 .f32) (a1 : IVec S2x625000 32) (a2 : FVec Ideal S625000x16 .f32)
    (a3 a4 : FVec Ideal S3x128x128 .f32) (a5 : FVec Ideal S3x128 .f32) (a6 : FVec Ideal S272x128 .f32)
    (a7 : FVec Ideal S128 .f32) (a8 : FVec Ideal S128x128 .f32) (a9 : FVec Ideal S128 .f32)
    (a10 : FVec Ideal S128x4 .f32) (a11 : FVec Ideal S4 .f32) :
    Cert.KernelIdeal.Stages.out a0 a1 a2 a3 a4 a5 a6 a7 a8 a9 a10 a11
      = Cert.ReferenceIdeal.Stages.tail (F := Ideal) (Cert.ReferenceIdeal.Stages.h3 a0 a1 a3 a4 a5) a1 a2 a6 a7 a8 a9 a10 a11 := by
  unfold Cert.KernelIdeal.Stages.out Cert.ReferenceIdeal.Stages.tail Cert.KernelIdeal.Stages.h4
  rw [Cert.ReferenceIdeal.Layers.linRef_eq, theRow_asRow4, kh3_eq, msg_eq, sumAt_eq, sumAt_eq, srcOf_eq, dstOf_eq]

end Cert.Bridge

end
-- ==== Proof.lean ====
/-
  A three-layer graph network with an edge network and a classifier: the tiled kernel against its plain reference,
  over the extended reals.

  Both programs share their host side word for word: the edge table is cut into source and destination node numbers,
  node rows are gathered along them, edge rows are added up per node. They differ in the dense stages. The reference
  computes each as whole-array products; the kernel computes them in five tiled regions, 5000 rows at a time, with the
  edge network's first product taken band by band against the three row bands of its stacked matrix instead of once
  against the joined row. Over the extended reals a change of float format is the identity and a tile product into a
  zero accumulator is the plain sum of products, so each tile is the restriction of one whole-array function to its
  rows; the tiles cover the array; and the banded product is the joined one because a finite sum of extended reals may
  be cut anywhere (addition is commutative and associative; no entry needs to be finite). Hence the two results are
  equal entry by entry, for all inputs.

  The modules: `Rows` states each dense stage one output entry at a time; `KerPay` reads the kernel's tile
  arithmetic at an index; `Region0`–`Region4` go from tiles to whole arrays; `KernelRun` names the kernel's
  result buffer after its run; `HostChain` reads that buffer back through the run to the arguments; `RefStages` and
  `RefLayers` do the same for the reference; `Bridge` joins the two terms.
-/
import proofs.«141989_j910533067387_1_alg».proof.Defs
import proofs.«141989_j910533067387_1_alg».proof.Proof.Gen.Kernel
import proofs.«141989_j910533067387_1_alg».proof.Proof.Gen.Kernel.Skeleton
import proofs.«141989_j910533067387_1_alg».proof.Proof.Gen.Kernel.Launch
import proofs.«141989_j910533067387_1_alg».proof.Proof.Gen.Kernel.Points
import proofs.«141989_j910533067387_1_alg».proof.Proof.Gen.Kernel.Frame
import proofs.«141989_j910533067387_1_alg».proof.Proof.Gen.KernelIdeal
import proofs.«141989_j910533067387_1_alg».proof.Proof.Gen.KernelIdeal.Skeleton
import proofs.«141989_j910533067387_1_alg».proof.Proof.Gen.KernelIdeal.Launch
import proofs.«141989_j910533067387_1_alg».proof.Proof.Gen.KernelIdeal.Points
import proofs.«141989_j910533067387_1_alg».proof.Proof.Gen.KernelIdeal.Frame
import proofs.«141989_j910533067387_1_alg».proof.Proof.Gen.ReferenceIdeal
import proofs.«141989_j910533067387_1_alg».proof.Proof.Gen.Pre_finite_inputs
import proofs.«141989_j910533067387_1_alg».proof.Proof.Gen.ReferenceIdeal.Run
import proofs.«141989_j910533067387_1_alg».proof.Proof.KernelRun
import proofs.«141989_j910533067387_1_alg».proof.Proof.HostChain
import proofs.«141989_j910533067387_1_alg».proof.Proof.RefStages
import proofs.«141989_j910533067387_1_alg».proof.Proof.Bridge
import Idealize.ShloMosaic.Adequacy
import Idealize.ShloMosaic.Init

set_option maxRecDepth 16384

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same logits: the kernel's result
    buffer read back to the arguments, the reference's composed result, and the equality of the two terms. -/
theorem algebraic : Cert.algebraic_KernelIdeal_ReferenceIdeal := by
  intro m ρ m' ρ' _ hagree
  refine ⟨fun c => Cert.KernelIdeal.Stages.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result m ρ c), (h c).2⟩)
      (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11⟩ := hagree c
    rw [Cert.ReferenceIdeal.Stages.res_eq, g0, g1, g2, g3, g4, g5, g6, g7, g8, g9, g10, g11]
    exact (Cert.Bridge.out_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
